-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048x2048 .f32) (main_arg13 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_v63 main_v67

def fn_part2 {F : FTy → Type} [FloatOps F] (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S64x2048 : Shape := ⟨2, ![64, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 29
  | .vmem => 32
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S1x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S2048x2048, .bf16⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S2048x2048, .bf16⟩
  | .local _ .vmem, ⟨16, _⟩ => ⟨S2048x2048, .bf16⟩
  | .local _ .vmem, ⟨17, _⟩ => ⟨S2048x2048, .bf16⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .bf16⟩
  | .local _ .vmem, ⟨25, _⟩ => ⟨S64x2048, .bf16⟩
  | .local _ .vmem, ⟨26, _⟩ => ⟨S1024x2048, .bf16⟩
  | .local _ .vmem, ⟨27, _⟩ => ⟨S1024x2048, .bf16⟩
  | .local _ .vmem, ⟨28, _⟩ => ⟨S2048x1024, .bf16⟩
  | .local _ .vmem, ⟨29, _⟩ => ⟨S2048x1024, .bf16⟩
  | .local _ .vmem, ⟨30, _⟩ => ⟨S1024x1024, .f32⟩
  | .local _ .vmem, ⟨31, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_call0_v10_3 : Ref sig .tc := ⟨.hbm, 27, rfl⟩
abbrev main_v0_0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2048_S1x2048 : S2048.ShapeCasts S1x2048
  transposes_S2048x2048_S2048x2048_1_0 : S2048x2048.Transposes [1, 0] S2048x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1x2048_S1x2048_0_0 : ∀ a, (![0, 0] : Fin 2 → Nat) a + S1x2048.size a ≤ S1x2048.size a
  h_S1x2048 : 0 < S1x2048.numel
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1x2048_S1x2048 : S1x2048.ShapeCasts S1x2048
  packedbf16_S64x2048_S64x2048_0_0 : (Rect.unit (s := S64x2048) ![0, 0] S64x2048.size inb_S64x2048_S64x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  dot_S64x2048_S2048x2048_S64x2048_1_0_0_1_n_n_wf : DotDims.WF S64x2048 S2048x2048 S64x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S8192x2048.size a
  hwx0_0 : ∀ i : grid0.Coords, EltTy.bits .f32 = 32 ∨ (Rect.block (s := S8192x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S8192x2048.size a
  hwx0_1 : ∀ i : grid0.Coords, EltTy.bits .f32 = 32 ∨ (Rect.block (s := S8192x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S8192x2048.size a
  hwx0_2 : ∀ i : grid0.Coords, EltTy.bits .f32 = 32 ∨ (Rect.block (s := S8192x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S8192x2048.size a
  hwx0_3 : ∀ i : grid0.Coords, EltTy.bits .f32 = 32 ∨ (Rect.block (s := S8192x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S8192x2048.size a
  hwx0_4 : ∀ i : grid0.Coords, EltTy.bits .f32 = 32 ∨ (Rect.block (s := S8192x2048) S64x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x2048.size a ≤ S2048x2048.size a
  hwx0_12 : ∀ i : grid0.Coords, EltTy.bits .bf16 = 32 ∨ (Rect.block (s := S2048x2048) S2048x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x2048.size a ≤ S8192x2048.size a
  hwx0_13 : ∀ i : grid0.Coords, EltTy.bits .f32 = 32 ∨ (Rect.block (s := S8192x2048) S64x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2048.size a ≤ S8192x2048.size a
  hwx0_14 : ∀ i : grid0.Coords, EltTy.bits .f32 = 32 ∨ (Rect.block (s := S8192x2048) S64x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x2048.size a ≤ S8192x2048.size a
  hwx0_15 : ∀ i : grid0.Coords, EltTy.bits .f32 = 32 ∨ (Rect.block (s := S8192x2048) S64x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x2048.size a ≤ S8192x2048.size a
  hwx0_16 : ∀ i : grid0.Coords, EltTy.bits .bf16 = 32 ∨ (Rect.block (s := S8192x2048) S64x2048.size (cc0_transform_16 i) (hinb0_16 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x2048.size a
  hwx1_2 : ∀ i : grid1.Coords, EltTy.bits .f32 = 32 ∨ (Rect.block (s := S8192x2048) S1024x1024.size (cc1_transform_2 i) (hinb1_2 i)).WholeWords (EltTy.packing .f32)

variable [Facts₀]

def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v0) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v1) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v3) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v5) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v7) S2048x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S64x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_2) S64x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_3) S64x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_call0_v10_3) S64x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_call0_v10_3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v9) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2048x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S2048x2048, .f32⟩
  | .hbm, ⟨82, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]

class Facts₀ : Prop where
  bcast_S1x2048_S8192x2048_0_1 : S1x2048.BroadcastsInDim S8192x2048 (![0, 1] : Fin 2 → Fin S8192x2048.rank)
  bcast_S_S1x2048 : S_.BroadcastsInDim S1x2048 (![] : Fin 0 → Fin S1x2048.rank)
  transposes_S2048x2048_S2048x2048_1_0 : S2048x2048.Transposes [1, 0] S2048x2048
  bcast_S_S8192x2048 : S_.BroadcastsInDim S8192x2048 (![] : Fin 0 → Fin S8192x2048.rank)
  bcast_S2048_S1x2048_1 : S2048.BroadcastsInDim S1x2048 (![1] : Fin 1 → Fin S1x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelRun.lean ====
/-
  The idealized kernel's run with its results named.

  The program is a stretch of host operations (reshapes of the two per-channel vectors, a transpose and a change of
  format of each weight matrix) followed by two kernel launches. Its run ends with every buffer at the contents
  obtained by folding these three segments over the launch memory: the host operations' results, then each launch's
  output arrays at what its grid points wrote back. Here that final memory is read at the four result buffers, beside
  the fourteen arguments, which no segment writes.
-/
import proofs.«158671_j6536940224793_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with each result buffer at the last segment
    boundary's contents and each argument as launched. -/
theorem run_results : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_v0_2) = W3 m ρ c (Proc.devRef .tc main_v0_2)
      ∧ r.2.mem ((c.tc : Thread nD τ).loc main_v0_3) = W3 m ρ c (Proc.devRef .tc main_v0_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       h c _ (mem_uc main_v0_1 (by decide)),
       h c _ (mem_uc main_v0_2 (by decide)),
       h c _ (mem_uc main_v0_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.Outcome

end
-- ==== Proof.KernelEntry.lean ====
/-
  What each launch finds in its input arrays.

  Before the first launch the host reshapes the two per-channel vectors (decay, bonus) into one-row matrices and, for
  each of the four weight matrices, transposes it and narrows it to half-width floats; it writes no argument. So the
  first launch finds the eight arguments it reads as launched, the two one-row matrices at the reshaped vectors, and
  three transposed weights. The second launch finds the first one's last output array at what that launch's grid
  points wrote back, and the fourth transposed weight untouched by the first launch.
-/
import proofs.«158671_j6536940224793_2_alg».proof.Proof.Gen.KernelIdeal.Frame
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first launch -/

/-- No host operation writes `main_arg0`. -/
theorem first_main_arg0 (c : Dev nD) : V1 m ρ c main_arg0 = m ((c : Thread nD τ).loc main_arg0) := by
  show StableHlo.after hostOps0 (W0 m ρ c) (Proc.devRef .tc main_arg0) = _
  after_results
/-- No host operation writes `main_arg1`. -/
theorem first_main_arg1 (c : Dev nD) : V1 m ρ c main_arg1 = m ((c : Thread nD τ).loc main_arg1) := by
  show StableHlo.after hostOps0 (W0 m ρ c) (Proc.devRef .tc main_arg1) = _
  after_results
/-- No host operation writes `main_arg2`. -/
theorem first_main_arg2 (c : Dev nD) : V1 m ρ c main_arg2 = m ((c : Thread nD τ).loc main_arg2) := by
  show StableHlo.after hostOps0 (W0 m ρ c) (Proc.devRef .tc main_arg2) = _
  after_results
/-- No host operation writes `main_arg3`. -/
theorem first_main_arg3 (c : Dev nD) : V1 m ρ c main_arg3 = m ((c : Thread nD τ).loc main_arg3) := by
  show StableHlo.after hostOps0 (W0 m ρ c) (Proc.devRef .tc main_arg3) = _
  after_results
/-- No host operation writes `main_arg4`. -/
theorem first_main_arg4 (c : Dev nD) : V1 m ρ c main_arg4 = m ((c : Thread nD τ).loc main_arg4) := by
  show StableHlo.after hostOps0 (W0 m ρ c) (Proc.devRef .tc main_arg4) = _
  after_results
/-- No host operation writes `main_arg7`. -/
theorem first_main_arg7 (c : Dev nD) : V1 m ρ c main_arg7 = m ((c : Thread nD τ).loc main_arg7) := by
  show StableHlo.after hostOps0 (W0 m ρ c) (Proc.devRef .tc main_arg7) = _
  after_results
/-- No host operation writes `main_arg8`. -/
theorem first_main_arg8 (c : Dev nD) : V1 m ρ c main_arg8 = m ((c : Thread nD τ).loc main_arg8) := by
  show StableHlo.after hostOps0 (W0 m ρ c) (Proc.devRef .tc main_arg8) = _
  after_results
/-- No host operation writes `main_arg9`. -/
theorem first_main_arg9 (c : Dev nD) : V1 m ρ c main_arg9 = m ((c : Thread nD τ).loc main_arg9) := by
  show StableHlo.after hostOps0 (W0 m ρ c) (Proc.devRef .tc main_arg9) = _
  after_results

/-- The decay as a one-row matrix. -/
theorem first_decay (c : Dev nD) :
    V1 m ρ c main_call0_v0 = shapeCast S1x2048 (m ((c : Thread nD τ).loc main_arg5)) shapeCasts_S2048_S1x2048 := by
  show StableHlo.after hostOps0 (W0 m ρ c) (Proc.devRef .tc main_call0_v0) = _
  after_results
  rfl
/-- The bonus as a one-row matrix. -/
theorem first_bonus (c : Dev nD) :
    V1 m ρ c main_call0_v1 = shapeCast S1x2048 (m ((c : Thread nD τ).loc main_arg6)) shapeCasts_S2048_S1x2048 := by
  show StableHlo.after hostOps0 (W0 m ρ c) (Proc.devRef .tc main_call0_v1) = _
  after_results
  rfl

/-- The transposed weight of k, narrowed. -/
theorem first_weight_k (c : Dev nD) :
    V1 m ρ c main_call0_v3 = truncf .bf16 (transpose S2048x2048 [1, 0] (m ((c : Thread nD τ).loc main_arg10)) transposes_S2048x2048_S2048x2048_1_0) bitsLt_bf16_f32 := by
  show StableHlo.after hostOps0 (W0 m ρ c) (Proc.devRef .tc main_call0_v3) = _
  after_results
  rfl
/-- The transposed weight of v, narrowed. -/
theorem first_weight_v (c : Dev nD) :
    V1 m ρ c main_call0_v5 = truncf .bf16 (transpose S2048x2048 [1, 0] (m ((c : Thread nD τ).loc main_arg11)) transposes_S2048x2048_S2048x2048_1_0) bitsLt_bf16_f32 := by
  show StableHlo.after hostOps0 (W0 m ρ c) (Proc.devRef .tc main_call0_v5) = _
  after_results
  rfl
/-- The transposed weight of r, narrowed. -/
theorem first_weight_r (c : Dev nD) :
    V1 m ρ c main_call0_v7 = truncf .bf16 (transpose S2048x2048 [1, 0] (m ((c : Thread nD τ).loc main_arg12)) transposes_S2048x2048_S2048x2048_1_0) bitsLt_bf16_f32 := by
  show StableHlo.after hostOps0 (W0 m ρ c) (Proc.devRef .tc main_call0_v7) = _
  after_results
  rfl
/-- The transposed weight of o, narrowed. -/
theorem first_weight_o (c : Dev nD) :
    V1 m ρ c main_call0_v9 = truncf .bf16 (transpose S2048x2048 [1, 0] (m ((c : Thread nD τ).loc main_arg13)) transposes_S2048x2048_S2048x2048_1_0) bitsLt_bf16_f32 := by
  show StableHlo.after hostOps0 (W0 m ρ c) (Proc.devRef .tc main_call0_v9) = _
  after_results
  rfl

/-! ## The second launch -/

/-- The gated average array is what the first launch leaves in its last output. -/
theorem second_gated (c : Dev nD) : V2 m ρ c main_call0_v10_3 = (dat0 (V1 m ρ) c).arrAt 16 cfg0.N :=
  W2_arr m ρ c 16
/-- The first launch does not touch the output weight. -/
theorem second_weight (c : Dev nD) : V2 m ρ c main_call0_v9 = V1 m ρ c main_call0_v9 :=
  W2_of_ne m ρ c main_call0_v9 (by decide)

/-! ## The results in the last boundary's contents -/

theorem last_out (c : Dev nD) : W3 m ρ c (Proc.devRef .tc main_v0_0) = (dat1 (V2 m ρ) c).arrAt 2 cfg1.N :=
  W3_arr m ρ c 2
theorem last_numerator (c : Dev nD) : W3 m ρ c (Proc.devRef .tc main_v0_1) = (dat0 (V1 m ρ) c).arrAt 13 cfg0.N :=
  (W3_of_ne m ρ c main_v0_1 (by decide)).trans (W2_arr m ρ c 13)
theorem last_denominator (c : Dev nD) : W3 m ρ c (Proc.devRef .tc main_v0_2) = (dat0 (V1 m ρ) c).arrAt 14 cfg0.N :=
  (W3_of_ne m ρ c main_v0_2 (by decide)).trans (W2_arr m ρ c 14)
theorem last_exponent (c : Dev nD) : W3 m ρ c (Proc.devRef .tc main_v0_3) = (dat0 (V1 m ρ) c).arrAt 15 cfg0.N :=
  (W3_of_ne m ρ c main_v0_3 (by decide)).trans (W2_arr m ρ c 15)

end Cert.KernelIdeal.Entry

end
-- ==== Proof.TimeMixSpec.lean ====
/-
  One step of a time-mixing recurrence with a stabilised exponential average, stated on the extended reals.

  For a batch of 8192 rows and 2048 channels the step takes the input x, the previous input sx, three running
  quantities sA, sB, sp (numerator, denominator and the exponent they are scaled by), per-channel decay td and bonus tf,
  three per-channel mixing rows and four square weight matrices. Each row is first mixed with the previous one,
  x·μ + sx·(1 − μ), once per projection, and multiplied by a weight matrix (given here already transposed, so that the
  product is rows by columns): this gives k, v and the gate's argument r. With ww = tf + k and p = max(sp, ww) the
  step's output before the last projection is σ(r) · (e^(sp−p)·sA + e^(ww−p)·v) / (e^(sp−p)·sB + e^(ww−p)); with
  ww' = sp − e^td and p' = max(ww', k) the new running quantities are e^(ww'−p')·sA + e^(k−p')·v,
  e^(ww'−p')·sB + e^(k−p') and p'. Everything is an operation of the extended reals as the ideal instance extends it
  (sum, product, difference, maximum, exponential, logistic, quotient); nothing here needs a finite input.
-/
import Idealize.ShloMosaic.PureOps.Ideal
import Idealize.ShloMosaic.Lib.ValueIdx

noncomputable section

namespace Cert.TimeMix

open Idealize.ShloMosaic Idealize.ShloMosaic.ValueIdx

/-- An `a` by `b` matrix of extended reals, indexed as the arrays of the programs are. -/
abbrev Mat (a b : ℕ) : Type := (⟨2, ![a, b]⟩ : Shape).Idx → EReal
/-- A vector of `a` extended reals. -/
abbrev Row (a : ℕ) : Type := (⟨1, ![a]⟩ : Shape).Idx → EReal

/-- The number one as both programs write it: the single-precision word of 1.0. -/
def one : EReal := Ideal.ofBits .f32 0x3F800000#32

/-- The token shift: the input mixed with the previous input by the weight `mk`. -/
def mix (x sx mk : EReal) : EReal := x * mk + sx * (one - mk)

/-- Entry `(r, q)` of the mixed rows times a matrix `WT` (rows by columns). -/
def proj (X SX : Mat 8192 2048) (MK : Mat 1 2048) (WT : Mat 2048 2048) (r : Fin 8192) (q : Fin 2048) : EReal :=
  ∑ l : Fin 2048, mix (X (ix2 r l)) (SX (ix2 r l)) (MK (ix2 (0 : Fin 1) l)) * WT (ix2 l q)

/-- The decayed exponent `sp − e^td`. -/
def decayed (sp td : EReal) : EReal := sp - Ideal.exp td

/-- The new exponent: the larger of the decayed exponent and `k`. -/
def newP (k sp td : EReal) : EReal := max (decayed sp td) k

/-- The new numerator. -/
def newA (k v sA sp td : EReal) : EReal :=
  Ideal.exp (decayed sp td - newP k sp td) * sA + Ideal.exp (k - newP k sp td) * v

/-- The new denominator. -/
def newB (k sB sp td : EReal) : EReal :=
  Ideal.exp (decayed sp td - newP k sp td) * sB + Ideal.exp (k - newP k sp td)

/-- The gated average `σ(r)·a / b` of this step, before the output projection. -/
def gated (k v r sA sB sp tf : EReal) : EReal :=
  Ideal.div
    (Ideal.logistic r * (Ideal.exp (sp - max sp (tf + k)) * sA + Ideal.exp (tf + k - max sp (tf + k)) * v))
    (Ideal.exp (sp - max sp (tf + k)) * sB + Ideal.exp (tf + k - max sp (tf + k)))

/-! ## The step's five results as whole arrays -/

/-- The new numerator array, from the input `X`, the running numerator `SA` and exponent `SP`, the previous input
    `SX`, the decay `TD`, the mixing rows of k and v and their transposed weights. -/
def NewA (X SA SP SX : Mat 8192 2048) (TD : Row 2048) (MKk MKv : Mat 1 2048) (WkT WvT : Mat 2048 2048) : Mat 8192 2048 :=
  fun i => newA (proj X SX MKk WkT (i 0) (i 1)) (proj X SX MKv WvT (i 0) (i 1)) (SA i) (SP i) (TD (ix1 (i 1)))

/-- The new denominator array. -/
def NewB (X SB SP SX : Mat 8192 2048) (TD : Row 2048) (MKk : Mat 1 2048) (WkT : Mat 2048 2048) : Mat 8192 2048 :=
  fun i => newB (proj X SX MKk WkT (i 0) (i 1)) (SB i) (SP i) (TD (ix1 (i 1)))

/-- The new exponent array. -/
def NewP (X SP SX : Mat 8192 2048) (TD : Row 2048) (MKk : Mat 1 2048) (WkT : Mat 2048 2048) : Mat 8192 2048 :=
  fun i => newP (proj X SX MKk WkT (i 0) (i 1)) (SP i) (TD (ix1 (i 1)))

/-- The gated average array. -/
def Gated (X SA SB SP SX : Mat 8192 2048) (TF : Row 2048) (MKk MKv MKr : Mat 1 2048) (WkT WvT WrT : Mat 2048 2048) :
    Mat 8192 2048 :=
  fun i => gated (proj X SX MKk WkT (i 0) (i 1)) (proj X SX MKv WvT (i 0) (i 1)) (proj X SX MKr WrT (i 0) (i 1))
    (SA i) (SB i) (SP i) (TF (ix1 (i 1)))

/-- The output projection: entry `(r, q)` of `G` times `WT` (rows by columns). -/
def Out (G : Mat 8192 2048) (WT : Mat 2048 2048) : Mat 8192 2048 := fun i =>
  ∑ l : Fin 2048, G (ix2 (i 0) l) * WT (ix2 l (i 1))

end Cert.TimeMix

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.StageOneBody.lean ====
/-
  The first launch's body read at an entry of a block of 64 rows.

  The body loads a block of 64 rows of the input, of the previous input and of the three running quantities, the five
  per-channel rows and the three transposed weight matrices whole. Each projection mixes the 64 rows with the previous
  ones and multiplies them by a weight matrix into the zero accumulator: at entry (p, q) this is the plain sum over the
  2048 channels of the mixed row p times column q (the narrowing of the operands to half-width floats is the identity
  on the extended reals). The four stores are then pointwise in k, v and the gate's argument: the new numerator, the
  new denominator, the new exponent and the gated average, each the scalar function of the specification at (p, q),
  the per-channel rows read at channel q.
-/
import proofs.«158671_j6536940224793_2_alg».proof.Proof.Gen.KernelIdeal.Skeleton
import proofs.«158671_j6536940224793_2_alg».proof.Proof.TimeMixSpec
import proofs.«158671_j6536940224793_2_alg».proof.Proof.LibMatmulRowsByCols
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx Cert.TimeMix

local notation "D64" => dot_S64x2048_S2048x2048_S64x2048_1_0_0_1_n_n

/-! ## The contraction record of the 64-row products: one contracted axis of extent 2048, read at (p, k) and (k, q) -/

theorem lhs0 (i : S64x2048.Idx) (q : (dot_S64x2048_S2048x2048_S64x2048_1_0_0_1_n_n).contr.Idx) :
    ((dot_S64x2048_S2048x2048_S64x2048_1_0_0_1_n_n).lhsIdx i q 0).val = (i 0).val := by
  unfold DotDims.lhsIdx
  rw [dif_neg (show ¬(0 : Fin S64x2048.rank) ∈ (dot_S64x2048_S2048x2048_S64x2048_1_0_0_1_n_n).lhsBatch by decide),
    dif_pos (show (0 : Fin S64x2048.rank) ∈ (dot_S64x2048_S2048x2048_S64x2048_1_0_0_1_n_n).lhsNonContracting by decide)]
  rfl
theorem lhs1 (i : S64x2048.Idx) (q : (dot_S64x2048_S2048x2048_S64x2048_1_0_0_1_n_n).contr.Idx) :
    ((dot_S64x2048_S2048x2048_S64x2048_1_0_0_1_n_n).lhsIdx i q 1).val = (q ⟨0, by decide⟩).val :=
  (dot_S64x2048_S2048x2048_S64x2048_1_0_0_1_n_n).lhsIdx_val_of_single rfl i q
theorem rhs0 (i : S64x2048.Idx) (q : (dot_S64x2048_S2048x2048_S64x2048_1_0_0_1_n_n).contr.Idx) :
    ((dot_S64x2048_S2048x2048_S64x2048_1_0_0_1_n_n).rhsIdx i q 0).val = (q ⟨0, by decide⟩).val :=
  (dot_S64x2048_S2048x2048_S64x2048_1_0_0_1_n_n).rhsIdx_val_of_single rfl i q
theorem rhs1 (i : S64x2048.Idx) (q : (dot_S64x2048_S2048x2048_S64x2048_1_0_0_1_n_n).contr.Idx) :
    ((dot_S64x2048_S2048x2048_S64x2048_1_0_0_1_n_n).rhsIdx i q 1).val = (i 1).val := by
  unfold DotDims.rhsIdx
  rw [dif_neg (show ¬(1 : Fin S2048x2048.rank) ∈ (dot_S64x2048_S2048x2048_S64x2048_1_0_0_1_n_n).rhsBatch by decide),
    dif_pos (show (1 : Fin S2048x2048.rank) ∈ (dot_S64x2048_S2048x2048_S64x2048_1_0_0_1_n_n).rhsNonContracting by decide)]
  rfl

/-- A product of 64 rows by a 2048 by 2048 matrix into the zero accumulator, at entry (p, q). -/
theorem product_at (l : FVec Ideal S64x2048 .bf16) (r : FVec Ideal S2048x2048 .bf16) (p : Fin 64) (q : Fin 2048) :
    matmul (φ₁ := .bf16) (φ₂ := .bf16) dot_S64x2048_S2048x2048_S64x2048_1_0_0_1_n_n none l r (constant (F := Ideal) S64x2048 .f32 0x00000000#32) (ix2 p q)
      = ∑ k : Fin 2048, l (ix2 p k) * r (ix2 k q) :=
  MatmulRowsByCols.matmul_zero_apply dot_S64x2048_S2048x2048_S64x2048_1_0_0_1_n_n rfl rfl lhs0 lhs1 rhs0 rhs1 none l r p q

/-! ## The mixed rows -/

/-- Row p of the input mixed with the previous input, at channel l. -/
theorem mixed_at (x0 x1 : Vec Ideal S64x2048 .f32) (x5 : Vec Ideal S1x2048 .f32) (p : Fin 64) (l : Fin 2048) :
    k0_pay1 (F := Ideal) x0 x1 x5 (ix2 p l) = mix (x0 (ix2 p l)) (x1 (ix2 p l)) (x5 (ix2 (0 : Fin 1) l)) := by
  unfold k0_pay1
  rw [truncf_apply, addf_apply, mulf_apply, mulf_apply, broadcastTo_1b_ab_apply, broadcastTo_1b_ab_apply, subf_apply,
    broadcast_apply]
  rfl

/-! ## The projections -/

/-- A projection of the block at entry (p, q): the sum over the channels of the mixed row p times column q of the
    (transposed) weight matrix. -/
theorem proj_at (x0 x1 : Vec Ideal S64x2048 .f32) (x5 : Vec Ideal S1x2048 .f32) (x10 : Vec Ideal S2048x2048 .bf16)
    (p : Fin 64) (q : Fin 2048) :
    k0_pay2 (F := Ideal) x0 x1 x5 x10 (ix2 p q)
      = ∑ l : Fin 2048, mix (x0 (ix2 p l)) (x1 (ix2 p l)) (x5 (ix2 (0 : Fin 1) l)) * x10 (ix2 l q) := by
  have e : k0_pay2 (F := Ideal) x0 x1 x5 x10
      = matmul (φ₁ := .bf16) (φ₂ := .bf16) dot_S64x2048_S2048x2048_S64x2048_1_0_0_1_n_n none (k0_pay1 (F := Ideal) x0 x1 x5)
          x10 (constant (F := Ideal) S64x2048 .f32 0x00000000#32) := by
    unfold k0_pay2 k0_pay1
    rw [shapeCast_self]
  rw [e, product_at]
  exact Finset.sum_congr rfl fun l _ => by rw [mixed_at]

/-- The second projection is the first one's expression at the other mixing row and weight. -/
theorem second_proj (x0 x1 : Vec Ideal S64x2048 .f32) (x6 : Vec Ideal S1x2048 .f32) (x11 : Vec Ideal S2048x2048 .bf16) :
    k0_pay3 (F := Ideal) x0 x1 x6 x11 = k0_pay2 (F := Ideal) x0 x1 x6 x11 := rfl

/-! ## The pointwise part, for any k and v -/

theorem exp_at {s : Shape} {φ : FTy} (a : FVec Ideal s φ) (i : s.Idx) : exp a i = Ideal.exp (a i) := rfl
theorem logistic_at {s : Shape} {φ : FTy} (a : FVec Ideal s φ) (i : s.Idx) : logistic a i = Ideal.logistic (a i) := rfl

/-- The decayed exponent at (p, q). -/
theorem decayed_at (x4 : Vec Ideal S64x2048 .f32) (x8 : Vec Ideal S1x2048 .f32) (p : Fin 64) (q : Fin 2048) :
    k0_pay5 (F := Ideal) x4 x8 (ix2 p q) = decayed (x4 (ix2 p q)) (x8 (ix2 (0 : Fin 1) q)) := by
  unfold k0_pay5
  rw [subf_apply, broadcastTo_1b_ab_apply, exp_at, shapeCast_self]
  rfl

/-- The new exponent at (p, q). -/
theorem newP_at (K : FVec Ideal S64x2048 .f32) (x4 : Vec Ideal S64x2048 .f32) (x8 : Vec Ideal S1x2048 .f32)
    (p : Fin 64) (q : Fin 2048) :
    k0_pay6 (F := Ideal) K x4 x8 (ix2 p q) = newP (K (ix2 p q)) (x4 (ix2 p q)) (x8 (ix2 (0 : Fin 1) q)) := by
  unfold k0_pay6
  rw [maximumf_apply, decayed_at]
  rfl

/-- The new numerator at (p, q). -/
theorem newA_at (K V : FVec Ideal S64x2048 .f32) (x2 x4 : Vec Ideal S64x2048 .f32) (x8 : Vec Ideal S1x2048 .f32)
    (p : Fin 64) (q : Fin 2048) :
    k0_pay9 (F := Ideal) K V x2 x4 x8 (ix2 p q)
      = newA (K (ix2 p q)) (V (ix2 p q)) (x2 (ix2 p q)) (x4 (ix2 p q)) (x8 (ix2 (0 : Fin 1) q)) := by
  unfold k0_pay9 k0_pay7 k0_pay8
  rw [addf_apply, mulf_apply, mulf_apply, exp_at, exp_at, subf_apply, subf_apply, decayed_at, newP_at]
  rfl

/-- The new denominator at (p, q). -/
theorem newB_at (K : FVec Ideal S64x2048 .f32) (x3 x4 : Vec Ideal S64x2048 .f32) (x8 : Vec Ideal S1x2048 .f32)
    (p : Fin 64) (q : Fin 2048) :
    k0_pay10 (F := Ideal) K x3 x4 x8 (ix2 p q)
      = newB (K (ix2 p q)) (x3 (ix2 p q)) (x4 (ix2 p q)) (x8 (ix2 (0 : Fin 1) q)) := by
  unfold k0_pay10 k0_pay7 k0_pay8
  rw [addf_apply, mulf_apply, exp_at, exp_at, subf_apply, subf_apply, decayed_at, newP_at]
  rfl

/-- The gated average at (p, q): the gate's argument is the third projection, a product of the mixed rows `R` by the
    weight `W` into the zero accumulator. -/
theorem gated_at (R : FVec Ideal S64x2048 .bf16) (K V : FVec Ideal S64x2048 .f32) (W : FVec Ideal S2048x2048 .bf16)
    (x2 x3 x4 : Vec Ideal S64x2048 .f32) (x9 : Vec Ideal S1x2048 .f32) (p : Fin 64) (q : Fin 2048) :
    k0_pay11 (F := Ideal) R K V W (constant (F := Ideal) S64x2048 .f32 0x00000000#32) x2 x3 x4 x9 (ix2 p q)
      = gated (K (ix2 p q)) (V (ix2 p q)) (∑ l : Fin 2048, R (ix2 p l) * W (ix2 l q))
          (x2 (ix2 p q)) (x3 (ix2 p q)) (x4 (ix2 p q)) (x9 (ix2 (0 : Fin 1) q)) := by
  unfold k0_pay11
  simp only [truncf_apply, divf_apply, mulf_apply, addf_apply, subf_apply, maximumf_apply, exp_at, logistic_at,
    broadcastTo_1b_ab_apply, shapeCast_self, product_at]
  rfl

/-! ## A block's entries against the whole arrays

  The block of grid point t holds rows 64·t … 64·t + 63 of the batch. Below, `r` is the batch row that row `p` of the
  block is, and the hypotheses say that the loaded blocks are those rows of the arrays (the per-channel rows and the
  weights are loaded whole). -/

/-- A projection of the block is the projection of the batch, at the block's row. -/
theorem block_proj (x0 x1 : Vec Ideal S64x2048 .f32) (x5 : Vec Ideal S1x2048 .f32) (x10 : Vec Ideal S2048x2048 .bf16)
    (X SX : Mat 8192 2048) (MK : Mat 1 2048) (WT : Mat 2048 2048) (r : Fin 8192) (p : Fin 64) (q : Fin 2048)
    (h0 : ∀ l : Fin 2048, x0 (ix2 p l) = X (ix2 r l)) (h1 : ∀ l : Fin 2048, x1 (ix2 p l) = SX (ix2 r l))
    (h5 : ∀ l : Fin 2048, x5 (ix2 (0 : Fin 1) l) = MK (ix2 (0 : Fin 1) l))
    (h10 : ∀ l : Fin 2048, x10 (ix2 l q) = WT (ix2 l q)) :
    k0_pay2 (F := Ideal) x0 x1 x5 x10 (ix2 p q) = proj X SX MK WT r q := by
  rw [proj_at]
  exact Finset.sum_congr rfl fun l _ => by rw [h0, h1, h5, h10]

/-- The gate's argument: the mixed rows times the third weight. -/
theorem block_proj_gate (x0 x1 : Vec Ideal S64x2048 .f32) (x7 : Vec Ideal S1x2048 .f32) (x12 : Vec Ideal S2048x2048 .bf16)
    (X SX : Mat 8192 2048) (MK : Mat 1 2048) (WT : Mat 2048 2048) (r : Fin 8192) (p : Fin 64) (q : Fin 2048)
    (h0 : ∀ l : Fin 2048, x0 (ix2 p l) = X (ix2 r l)) (h1 : ∀ l : Fin 2048, x1 (ix2 p l) = SX (ix2 r l))
    (h7 : ∀ l : Fin 2048, x7 (ix2 (0 : Fin 1) l) = MK (ix2 (0 : Fin 1) l))
    (h12 : ∀ l : Fin 2048, x12 (ix2 l q) = WT (ix2 l q)) :
    (∑ l : Fin 2048, k0_pay1 (F := Ideal) x0 x1 x7 (ix2 p l) * k0_pay4 (F := Ideal) x12 (ix2 l q)) = proj X SX MK WT r q := by
  have e4 : k0_pay4 (F := Ideal) x12 = x12 := by unfold k0_pay4; exact shapeCast_self _ _
  rw [e4]
  exact Finset.sum_congr rfl fun l _ => by rw [mixed_at, h0, h1, h7, h12]

section Entries

variable (x0 x1 x2 x3 x4 : Vec Ideal S64x2048 .f32) (x5 x6 x7 x8 x9 : Vec Ideal S1x2048 .f32)
  (x10 x11 x12 : Vec Ideal S2048x2048 .bf16)
  (X SA SB SP SX : Mat 8192 2048) (TD TF : Row 2048) (MKk MKv MKr : Mat 1 2048) (WkT WvT WrT : Mat 2048 2048)
  (r : Fin 8192) (p : Fin 64) (q : Fin 2048)

/-- The new numerator's block entry is the array's entry at the block's row. -/
theorem numerator_entry
    (h0 : ∀ l : Fin 2048, x0 (ix2 p l) = X (ix2 r l)) (h1 : ∀ l : Fin 2048, x1 (ix2 p l) = SX (ix2 r l))
    (h2 : x2 (ix2 p q) = SA (ix2 r q)) (h4 : x4 (ix2 p q) = SP (ix2 r q))
    (h5 : ∀ l : Fin 2048, x5 (ix2 (0 : Fin 1) l) = MKk (ix2 (0 : Fin 1) l))
    (h6 : ∀ l : Fin 2048, x6 (ix2 (0 : Fin 1) l) = MKv (ix2 (0 : Fin 1) l))
    (h8 : x8 (ix2 (0 : Fin 1) q) = TD (ix1 q))
    (h10 : ∀ l : Fin 2048, x10 (ix2 l q) = WkT (ix2 l q)) (h11 : ∀ l : Fin 2048, x11 (ix2 l q) = WvT (ix2 l q)) :
    k0_pay9 (F := Ideal) (k0_pay2 (F := Ideal) x0 x1 x5 x10) (k0_pay3 (F := Ideal) x0 x1 x6 x11) x2 x4 x8 (ix2 p q)
      = NewA X SA SP SX TD MKk MKv WkT WvT (ix2 r q) := by
  rw [newA_at, second_proj, block_proj x0 x1 x5 x10 X SX MKk WkT r p q h0 h1 h5 h10,
    block_proj x0 x1 x6 x11 X SX MKv WvT r p q h0 h1 h6 h11, h2, h4, h8]
  rfl

/-- The new denominator's block entry. -/
theorem denominator_entry
    (h0 : ∀ l : Fin 2048, x0 (ix2 p l) = X (ix2 r l)) (h1 : ∀ l : Fin 2048, x1 (ix2 p l) = SX (ix2 r l))
    (h3 : x3 (ix2 p q) = SB (ix2 r q)) (h4 : x4 (ix2 p q) = SP (ix2 r q))
    (h5 : ∀ l : Fin 2048, x5 (ix2 (0 : Fin 1) l) = MKk (ix2 (0 : Fin 1) l))
    (h8 : x8 (ix2 (0 : Fin 1) q) = TD (ix1 q))
    (h10 : ∀ l : Fin 2048, x10 (ix2 l q) = WkT (ix2 l q)) :
    k0_pay10 (F := Ideal) (k0_pay2 (F := Ideal) x0 x1 x5 x10) x3 x4 x8 (ix2 p q)
      = NewB X SB SP SX TD MKk WkT (ix2 r q) := by
  rw [newB_at, block_proj x0 x1 x5 x10 X SX MKk WkT r p q h0 h1 h5 h10, h3, h4, h8]
  rfl

/-- The new exponent's block entry. -/
theorem exponent_entry
    (h0 : ∀ l : Fin 2048, x0 (ix2 p l) = X (ix2 r l)) (h1 : ∀ l : Fin 2048, x1 (ix2 p l) = SX (ix2 r l))
    (h4 : x4 (ix2 p q) = SP (ix2 r q))
    (h5 : ∀ l : Fin 2048, x5 (ix2 (0 : Fin 1) l) = MKk (ix2 (0 : Fin 1) l))
    (h8 : x8 (ix2 (0 : Fin 1) q) = TD (ix1 q))
    (h10 : ∀ l : Fin 2048, x10 (ix2 l q) = WkT (ix2 l q)) :
    k0_pay6 (F := Ideal) (k0_pay2 (F := Ideal) x0 x1 x5 x10) x4 x8 (ix2 p q)
      = NewP X SP SX TD MKk WkT (ix2 r q) := by
  rw [newP_at, block_proj x0 x1 x5 x10 X SX MKk WkT r p q h0 h1 h5 h10, h4, h8]
  rfl

/-- The gated average's block entry. -/
theorem gated_entry
    (h0 : ∀ l : Fin 2048, x0 (ix2 p l) = X (ix2 r l)) (h1 : ∀ l : Fin 2048, x1 (ix2 p l) = SX (ix2 r l))
    (h2 : x2 (ix2 p q) = SA (ix2 r q)) (h3 : x3 (ix2 p q) = SB (ix2 r q)) (h4 : x4 (ix2 p q) = SP (ix2 r q))
    (h5 : ∀ l : Fin 2048, x5 (ix2 (0 : Fin 1) l) = MKk (ix2 (0 : Fin 1) l))
    (h6 : ∀ l : Fin 2048, x6 (ix2 (0 : Fin 1) l) = MKv (ix2 (0 : Fin 1) l))
    (h7 : ∀ l : Fin 2048, x7 (ix2 (0 : Fin 1) l) = MKr (ix2 (0 : Fin 1) l))
    (h9 : x9 (ix2 (0 : Fin 1) q) = TF (ix1 q))
    (h10 : ∀ l : Fin 2048, x10 (ix2 l q) = WkT (ix2 l q)) (h11 : ∀ l : Fin 2048, x11 (ix2 l q) = WvT (ix2 l q))
    (h12 : ∀ l : Fin 2048, x12 (ix2 l q) = WrT (ix2 l q)) :
    k0_pay11 (F := Ideal) (k0_pay1 (F := Ideal) x0 x1 x7) (k0_pay2 (F := Ideal) x0 x1 x5 x10)
        (k0_pay3 (F := Ideal) x0 x1 x6 x11) (k0_pay4 (F := Ideal) x12)
        (constant (F := Ideal) S64x2048 .f32 0x00000000#32) x2 x3 x4 x9 (ix2 p q)
      = Gated X SA SB SP SX TF MKk MKv MKr WkT WvT WrT (ix2 r q) := by
  rw [gated_at, second_proj, block_proj x0 x1 x5 x10 X SX MKk WkT r p q h0 h1 h5 h10,
    block_proj x0 x1 x6 x11 X SX MKv WvT r p q h0 h1 h6 h11,
    block_proj_gate x0 x1 x7 x12 X SX MKr WrT r p q h0 h1 h7 h12, h2, h3, h4, h9]
  rfl

end Entries

end Cert.KernelIdeal.Body

end
-- ==== Proof.StageOneArrays.lean ====
/-
  The first launch's output arrays as whole-array functions.

  The launch runs over 128 grid points; point t is handed rows 64·t … 64·t + 63 of the five batch arrays, the five
  per-channel rows and the three transposed weights whole, and writes rows 64·t … 64·t + 63 of each of its four
  outputs. Every row of the batch lies in exactly one such band, so each output array ends at the specification's
  array: entry (r, q) is computed from row r of the inputs alone.
-/
import proofs.«158671_j6536940224793_2_alg».proof.Proof.Gen.KernelIdeal.Frame
import proofs.«158671_j6536940224793_2_alg».proof.Proof.StageOneBody
import Idealize.ShloMosaic.Lib.Pipeline.Value

set_option maxRecDepth 16384

noncomputable section

namespace Cert.KernelIdeal.StageOne

open Cert.KernelIdeal Cert.KernelIdeal.Gen
open Idealize.ShloMosaic Idealize.ShloMosaic.TcCoe Idealize.SL.Sem Idealize.ShloMosaic.ValueIdx Cert.TimeMix
open Idealize.ShloMosaic.Pipeline (Dat Cfg Window)

-- the contents of the TensorCore's buffers when the launch is entered
variable (V : (c : Dev nD) → (b : Ref sig .tc) → Buf (Elt Ideal) ((c : Thread nD τ).loc b))

theorem origin : (![0, 0] : Fin 2 → Nat) = fun _ => 0 := funext fun a => by fin_cases a <;> rfl

/-! ## The index maps over the grid: a band of rows per point, or the whole array at every point -/

theorem band_index0 : ∀ t : Fin cfg0.N, win0_0.index t (0 : Fin 2) = t.val ∧ win0_0.index t (1 : Fin 2) = 0 :=
  (by decide +kernel : ∀ t : Fin grid0.N, _)
theorem band_index1 : ∀ t : Fin cfg0.N, win0_1.index t (0 : Fin 2) = t.val ∧ win0_1.index t (1 : Fin 2) = 0 :=
  (by decide +kernel : ∀ t : Fin grid0.N, _)
theorem band_index2 : ∀ t : Fin cfg0.N, win0_2.index t (0 : Fin 2) = t.val ∧ win0_2.index t (1 : Fin 2) = 0 :=
  (by decide +kernel : ∀ t : Fin grid0.N, _)
theorem band_index3 : ∀ t : Fin cfg0.N, win0_3.index t (0 : Fin 2) = t.val ∧ win0_3.index t (1 : Fin 2) = 0 :=
  (by decide +kernel : ∀ t : Fin grid0.N, _)
theorem band_index4 : ∀ t : Fin cfg0.N, win0_4.index t (0 : Fin 2) = t.val ∧ win0_4.index t (1 : Fin 2) = 0 :=
  (by decide +kernel : ∀ t : Fin grid0.N, _)
theorem band_index13 : ∀ t : Fin cfg0.N, win0_13.index t (0 : Fin 2) = t.val ∧ win0_13.index t (1 : Fin 2) = 0 :=
  (by decide +kernel : ∀ t : Fin grid0.N, _)
theorem band_index14 : ∀ t : Fin cfg0.N, win0_14.index t (0 : Fin 2) = t.val ∧ win0_14.index t (1 : Fin 2) = 0 :=
  (by decide +kernel : ∀ t : Fin grid0.N, _)
theorem band_index15 : ∀ t : Fin cfg0.N, win0_15.index t (0 : Fin 2) = t.val ∧ win0_15.index t (1 : Fin 2) = 0 :=
  (by decide +kernel : ∀ t : Fin grid0.N, _)
theorem band_index16 : ∀ t : Fin cfg0.N, win0_16.index t (0 : Fin 2) = t.val ∧ win0_16.index t (1 : Fin 2) = 0 :=
  (by decide +kernel : ∀ t : Fin grid0.N, _)
theorem whole_index5 : ∀ t : Fin cfg0.N, win0_5.index t (0 : Fin 2) = 0 ∧ win0_5.index t (1 : Fin 2) = 0 :=
  (by decide +kernel : ∀ t : Fin grid0.N, _)
theorem whole_index6 : ∀ t : Fin cfg0.N, win0_6.index t (0 : Fin 2) = 0 ∧ win0_6.index t (1 : Fin 2) = 0 :=
  (by decide +kernel : ∀ t : Fin grid0.N, _)
theorem whole_index7 : ∀ t : Fin cfg0.N, win0_7.index t (0 : Fin 2) = 0 ∧ win0_7.index t (1 : Fin 2) = 0 :=
  (by decide +kernel : ∀ t : Fin grid0.N, _)
theorem whole_index8 : ∀ t : Fin cfg0.N, win0_8.index t (0 : Fin 2) = 0 ∧ win0_8.index t (1 : Fin 2) = 0 :=
  (by decide +kernel : ∀ t : Fin grid0.N, _)
theorem whole_index9 : ∀ t : Fin cfg0.N, win0_9.index t (0 : Fin 2) = 0 ∧ win0_9.index t (1 : Fin 2) = 0 :=
  (by decide +kernel : ∀ t : Fin grid0.N, _)
theorem whole_index10 : ∀ t : Fin cfg0.N, win0_10.index t (0 : Fin 2) = 0 ∧ win0_10.index t (1 : Fin 2) = 0 :=
  (by decide +kernel : ∀ t : Fin grid0.N, _)
theorem whole_index11 : ∀ t : Fin cfg0.N, win0_11.index t (0 : Fin 2) = 0 ∧ win0_11.index t (1 : Fin 2) = 0 :=
  (by decide +kernel : ∀ t : Fin grid0.N, _)
theorem whole_index12 : ∀ t : Fin cfg0.N, win0_12.index t (0 : Fin 2) = 0 ∧ win0_12.index t (1 : Fin 2) = 0 :=
  (by decide +kernel : ∀ t : Fin grid0.N, _)

/-- The batch row that row `p` of point `t`'s band is. -/
def rowOf (t : Fin cfg0.N) (p : Fin 64) : Fin 8192 :=
  ⟨t.val * 64 + p.val, by
    have ht : t.val < 128 := Nat.lt_of_lt_of_eq t.isLt N_0
    have hp := p.isLt
    omega⟩

/-! ## The blocks the body loads -/

/-- Input window 0's block at point `t` is band `t` of its array. -/
theorem band_read0 (c : Dev nD) (t : Fin cfg0.N) (p : Fin 64) (l : Fin 2048) :
    iblk0 V c 0 t (ix2 p l) = V c main_arg0 (ix2 (rowOf t p) l) := by
  show V c main_arg0 (((cfg0.win 0).blk t).view.emb (ix2 p l)) = _
  refine congrArg (V c main_arg0) (funext fun a => Fin.ext ?_)
  obtain ⟨e0, e1⟩ := band_index0 t
  match a with
  | ⟨0, _⟩ => show win0_0.index t (0 : Fin 2) * 64 + 1 * p.val = t.val * 64 + p.val; rw [e0]; omega
  | ⟨1, _⟩ => show win0_0.index t (1 : Fin 2) * 2048 + 1 * l.val = l.val; rw [e1]; omega
/-- Input window 1's block at point `t` is band `t` of its array. -/
theorem band_read1 (c : Dev nD) (t : Fin cfg0.N) (p : Fin 64) (l : Fin 2048) :
    iblk0 V c 1 t (ix2 p l) = V c main_arg4 (ix2 (rowOf t p) l) := by
  show V c main_arg4 (((cfg0.win 1).blk t).view.emb (ix2 p l)) = _
  refine congrArg (V c main_arg4) (funext fun a => Fin.ext ?_)
  obtain ⟨e0, e1⟩ := band_index1 t
  match a with
  | ⟨0, _⟩ => show win0_1.index t (0 : Fin 2) * 64 + 1 * p.val = t.val * 64 + p.val; rw [e0]; omega
  | ⟨1, _⟩ => show win0_1.index t (1 : Fin 2) * 2048 + 1 * l.val = l.val; rw [e1]; omega
/-- Input window 2's block at point `t` is band `t` of its array. -/
theorem band_read2 (c : Dev nD) (t : Fin cfg0.N) (p : Fin 64) (l : Fin 2048) :
    iblk0 V c 2 t (ix2 p l) = V c main_arg1 (ix2 (rowOf t p) l) := by
  show V c main_arg1 (((cfg0.win 2).blk t).view.emb (ix2 p l)) = _
  refine congrArg (V c main_arg1) (funext fun a => Fin.ext ?_)
  obtain ⟨e0, e1⟩ := band_index2 t
  match a with
  | ⟨0, _⟩ => show win0_2.index t (0 : Fin 2) * 64 + 1 * p.val = t.val * 64 + p.val; rw [e0]; omega
  | ⟨1, _⟩ => show win0_2.index t (1 : Fin 2) * 2048 + 1 * l.val = l.val; rw [e1]; omega
/-- Input window 3's block at point `t` is band `t` of its array. -/
theorem band_read3 (c : Dev nD) (t : Fin cfg0.N) (p : Fin 64) (l : Fin 2048) :
    iblk0 V c 3 t (ix2 p l) = V c main_arg2 (ix2 (rowOf t p) l) := by
  show V c main_arg2 (((cfg0.win 3).blk t).view.emb (ix2 p l)) = _
  refine congrArg (V c main_arg2) (funext fun a => Fin.ext ?_)
  obtain ⟨e0, e1⟩ := band_index3 t
  match a with
  | ⟨0, _⟩ => show win0_3.index t (0 : Fin 2) * 64 + 1 * p.val = t.val * 64 + p.val; rw [e0]; omega
  | ⟨1, _⟩ => show win0_3.index t (1 : Fin 2) * 2048 + 1 * l.val = l.val; rw [e1]; omega
/-- Input window 4's block at point `t` is band `t` of its array. -/
theorem band_read4 (c : Dev nD) (t : Fin cfg0.N) (p : Fin 64) (l : Fin 2048) :
    iblk0 V c 4 t (ix2 p l) = V c main_arg3 (ix2 (rowOf t p) l) := by
  show V c main_arg3 (((cfg0.win 4).blk t).view.emb (ix2 p l)) = _
  refine congrArg (V c main_arg3) (funext fun a => Fin.ext ?_)
  obtain ⟨e0, e1⟩ := band_index4 t
  match a with
  | ⟨0, _⟩ => show win0_4.index t (0 : Fin 2) * 64 + 1 * p.val = t.val * 64 + p.val; rw [e0]; omega
  | ⟨1, _⟩ => show win0_4.index t (1 : Fin 2) * 2048 + 1 * l.val = l.val; rw [e1]; omega

/-- Input window 5's block at every point is its whole array. -/
theorem whole_read5 (c : Dev nD) (t : Fin cfg0.N) (y : S1x2048.Idx) : iblk0 V c 5 t y = V c main_arg7 y := by
  show V c main_arg7 (((cfg0.win 5).blk t).view.emb y) = _
  refine congrArg (V c main_arg7) (funext fun a => Fin.ext ?_)
  obtain ⟨e0, e1⟩ := whole_index5 t
  match a with
  | ⟨0, _⟩ => show win0_5.index t (0 : Fin 2) * 1 + 1 * (y 0).val = (y 0).val; rw [e0]; omega
  | ⟨1, _⟩ => show win0_5.index t (1 : Fin 2) * 2048 + 1 * (y 1).val = (y 1).val; rw [e1]; omega
/-- Input window 6's block at every point is its whole array. -/
theorem whole_read6 (c : Dev nD) (t : Fin cfg0.N) (y : S1x2048.Idx) : iblk0 V c 6 t y = V c main_arg8 y := by
  show V c main_arg8 (((cfg0.win 6).blk t).view.emb y) = _
  refine congrArg (V c main_arg8) (funext fun a => Fin.ext ?_)
  obtain ⟨e0, e1⟩ := whole_index6 t
  match a with
  | ⟨0, _⟩ => show win0_6.index t (0 : Fin 2) * 1 + 1 * (y 0).val = (y 0).val; rw [e0]; omega
  | ⟨1, _⟩ => show win0_6.index t (1 : Fin 2) * 2048 + 1 * (y 1).val = (y 1).val; rw [e1]; omega
/-- Input window 7's block at every point is its whole array. -/
theorem whole_read7 (c : Dev nD) (t : Fin cfg0.N) (y : S1x2048.Idx) : iblk0 V c 7 t y = V c main_arg9 y := by
  show V c main_arg9 (((cfg0.win 7).blk t).view.emb y) = _
  refine congrArg (V c main_arg9) (funext fun a => Fin.ext ?_)
  obtain ⟨e0, e1⟩ := whole_index7 t
  match a with
  | ⟨0, _⟩ => show win0_7.index t (0 : Fin 2) * 1 + 1 * (y 0).val = (y 0).val; rw [e0]; omega
  | ⟨1, _⟩ => show win0_7.index t (1 : Fin 2) * 2048 + 1 * (y 1).val = (y 1).val; rw [e1]; omega
/-- Input window 8's block at every point is its whole array. -/
theorem whole_read8 (c : Dev nD) (t : Fin cfg0.N) (y : S1x2048.Idx) : iblk0 V c 8 t y = V c main_call0_v0 y := by
  show V c main_call0_v0 (((cfg0.win 8).blk t).view.emb y) = _
  refine congrArg (V c main_call0_v0) (funext fun a => Fin.ext ?_)
  obtain ⟨e0, e1⟩ := whole_index8 t
  match a with
  | ⟨0, _⟩ => show win0_8.index t (0 : Fin 2) * 1 + 1 * (y 0).val = (y 0).val; rw [e0]; omega
  | ⟨1, _⟩ => show win0_8.index t (1 : Fin 2) * 2048 + 1 * (y 1).val = (y 1).val; rw [e1]; omega
/-- Input window 9's block at every point is its whole array. -/
theorem whole_read9 (c : Dev nD) (t : Fin cfg0.N) (y : S1x2048.Idx) : iblk0 V c 9 t y = V c main_call0_v1 y := by
  show V c main_call0_v1 (((cfg0.win 9).blk t).view.emb y) = _
  refine congrArg (V c main_call0_v1) (funext fun a => Fin.ext ?_)
  obtain ⟨e0, e1⟩ := whole_index9 t
  match a with
  | ⟨0, _⟩ => show win0_9.index t (0 : Fin 2) * 1 + 1 * (y 0).val = (y 0).val; rw [e0]; omega
  | ⟨1, _⟩ => show win0_9.index t (1 : Fin 2) * 2048 + 1 * (y 1).val = (y 1).val; rw [e1]; omega
/-- Input window 10's block at every point is its whole array. -/
theorem whole_read10 (c : Dev nD) (t : Fin cfg0.N) (y : S2048x2048.Idx) : iblk0 V c 10 t y = V c main_call0_v3 y := by
  show V c main_call0_v3 (((cfg0.win 10).blk t).view.emb y) = _
  refine congrArg (V c main_call0_v3) (funext fun a => Fin.ext ?_)
  obtain ⟨e0, e1⟩ := whole_index10 t
  match a with
  | ⟨0, _⟩ => show win0_10.index t (0 : Fin 2) * 2048 + 1 * (y 0).val = (y 0).val; rw [e0]; omega
  | ⟨1, _⟩ => show win0_10.index t (1 : Fin 2) * 2048 + 1 * (y 1).val = (y 1).val; rw [e1]; omega
/-- Input window 11's block at every point is its whole array. -/
theorem whole_read11 (c : Dev nD) (t : Fin cfg0.N) (y : S2048x2048.Idx) : iblk0 V c 11 t y = V c main_call0_v5 y := by
  show V c main_call0_v5 (((cfg0.win 11).blk t).view.emb y) = _
  refine congrArg (V c main_call0_v5) (funext fun a => Fin.ext ?_)
  obtain ⟨e0, e1⟩ := whole_index11 t
  match a with
  | ⟨0, _⟩ => show win0_11.index t (0 : Fin 2) * 2048 + 1 * (y 0).val = (y 0).val; rw [e0]; omega
  | ⟨1, _⟩ => show win0_11.index t (1 : Fin 2) * 2048 + 1 * (y 1).val = (y 1).val; rw [e1]; omega
/-- Input window 12's block at every point is its whole array. -/
theorem whole_read12 (c : Dev nD) (t : Fin cfg0.N) (y : S2048x2048.Idx) : iblk0 V c 12 t y = V c main_call0_v7 y := by
  show V c main_call0_v7 (((cfg0.win 12).blk t).view.emb y) = _
  refine congrArg (V c main_call0_v7) (funext fun a => Fin.ext ?_)
  obtain ⟨e0, e1⟩ := whole_index12 t
  match a with
  | ⟨0, _⟩ => show win0_12.index t (0 : Fin 2) * 2048 + 1 * (y 0).val = (y 0).val; rw [e0]; omega
  | ⟨1, _⟩ => show win0_12.index t (1 : Fin 2) * 2048 + 1 * (y 1).val = (y 1).val; rw [e1]; omega

/-! ## The bands the outputs are written to -/

/-- Entry (p, q) of output window 13's block at point `t` is entry (64·t + p, q) of its array. -/
theorem band_place13 (t : Fin cfg0.N) (p : Fin 64) (q : Fin 2048) :
    ((cfg0.win 13).blk t).view.emb (ix2 p q) = ix2 (rowOf t p) q := by
  refine funext fun a => Fin.ext ?_
  obtain ⟨e0, e1⟩ := band_index13 t
  match a with
  | ⟨0, _⟩ => show win0_13.index t (0 : Fin 2) * 64 + 1 * p.val = t.val * 64 + p.val; rw [e0]; omega
  | ⟨1, _⟩ => show win0_13.index t (1 : Fin 2) * 2048 + 1 * q.val = q.val; rw [e1]; omega

/-- An index of the array is in point `t`'s band of window 13 iff each coordinate is in the band's range. -/
theorem mem_band13 (t : Fin cfg0.N) (i : S8192x2048.Idx) :
    i ∈ ((cfg0.win 13).blk t).view.set ↔ ∀ a : Fin 2, win0_13.index t a * S64x2048.size a ≤ (i a).val ∧ (i a).val < win0_13.index t a * S64x2048.size a + S64x2048.size a := by
  show i ∈ ((View.whole main_v0_1).slice (win0_13.rect t)).set ↔ _
  rw [View.set_slice_whole, Rect.mem_set_unit]
  exact Iff.rfl

/-- Every index of the array is in the band of the point its row falls in. -/
theorem covered13 (i : S8192x2048.Idx) :
    ∃ t : Fin cfg0.N, (cfg0.win 13).flush t = true ∧ i ∈ ((cfg0.win 13).blk t).view.set := by
  have hi0 : (i 0).val < 8192 := (i 0).isLt
  have hi1 : (i 1).val < 2048 := (i 1).isLt
  have hN : cfg0.N = 128 := N_0
  refine ⟨⟨(i 0).val / 64, by rw [hN]; omega⟩, flush0_13 _, ?_⟩
  obtain ⟨e0, e1⟩ := band_index13 ⟨(i 0).val / 64, by rw [hN]; omega⟩
  rw [mem_band13]
  intro a
  match a with
  | ⟨0, _⟩ =>
    show win0_13.index _ (0 : Fin 2) * 64 ≤ (i 0).val ∧ (i 0).val < win0_13.index _ (0 : Fin 2) * 64 + 64
    rw [e0]
    show (i 0).val / 64 * 64 ≤ (i 0).val ∧ (i 0).val < (i 0).val / 64 * 64 + 64
    omega
  | ⟨1, _⟩ =>
    show win0_13.index _ (1 : Fin 2) * 2048 ≤ (i 1).val ∧ (i 1).val < win0_13.index _ (1 : Fin 2) * 2048 + 2048
    rw [e1]
    omega

/-- Entry (p, q) of output window 14's block at point `t` is entry (64·t + p, q) of its array. -/
theorem band_place14 (t : Fin cfg0.N) (p : Fin 64) (q : Fin 2048) :
    ((cfg0.win 14).blk t).view.emb (ix2 p q) = ix2 (rowOf t p) q := by
  refine funext fun a => Fin.ext ?_
  obtain ⟨e0, e1⟩ := band_index14 t
  match a with
  | ⟨0, _⟩ => show win0_14.index t (0 : Fin 2) * 64 + 1 * p.val = t.val * 64 + p.val; rw [e0]; omega
  | ⟨1, _⟩ => show win0_14.index t (1 : Fin 2) * 2048 + 1 * q.val = q.val; rw [e1]; omega

/-- An index of the array is in point `t`'s band of window 14 iff each coordinate is in the band's range. -/
theorem mem_band14 (t : Fin cfg0.N) (i : S8192x2048.Idx) :
    i ∈ ((cfg0.win 14).blk t).view.set ↔ ∀ a : Fin 2, win0_14.index t a * S64x2048.size a ≤ (i a).val ∧ (i a).val < win0_14.index t a * S64x2048.size a + S64x2048.size a := by
  show i ∈ ((View.whole main_v0_2).slice (win0_14.rect t)).set ↔ _
  rw [View.set_slice_whole, Rect.mem_set_unit]
  exact Iff.rfl

/-- Every index of the array is in the band of the point its row falls in. -/
theorem covered14 (i : S8192x2048.Idx) :
    ∃ t : Fin cfg0.N, (cfg0.win 14).flush t = true ∧ i ∈ ((cfg0.win 14).blk t).view.set := by
  have hi0 : (i 0).val < 8192 := (i 0).isLt
  have hi1 : (i 1).val < 2048 := (i 1).isLt
  have hN : cfg0.N = 128 := N_0
  refine ⟨⟨(i 0).val / 64, by rw [hN]; omega⟩, flush0_14 _, ?_⟩
  obtain ⟨e0, e1⟩ := band_index14 ⟨(i 0).val / 64, by rw [hN]; omega⟩
  rw [mem_band14]
  intro a
  match a with
  | ⟨0, _⟩ =>
    show win0_14.index _ (0 : Fin 2) * 64 ≤ (i 0).val ∧ (i 0).val < win0_14.index _ (0 : Fin 2) * 64 + 64
    rw [e0]
    show (i 0).val / 64 * 64 ≤ (i 0).val ∧ (i 0).val < (i 0).val / 64 * 64 + 64
    omega
  | ⟨1, _⟩ =>
    show win0_14.index _ (1 : Fin 2) * 2048 ≤ (i 1).val ∧ (i 1).val < win0_14.index _ (1 : Fin 2) * 2048 + 2048
    rw [e1]
    omega

/-- Entry (p, q) of output window 15's block at point `t` is entry (64·t + p, q) of its array. -/
theorem band_place15 (t : Fin cfg0.N) (p : Fin 64) (q : Fin 2048) :
    ((cfg0.win 15).blk t).view.emb (ix2 p q) = ix2 (rowOf t p) q := by
  refine funext fun a => Fin.ext ?_
  obtain ⟨e0, e1⟩ := band_index15 t
  match a with
  | ⟨0, _⟩ => show win0_15.index t (0 : Fin 2) * 64 + 1 * p.val = t.val * 64 + p.val; rw [e0]; omega
  | ⟨1, _⟩ => show win0_15.index t (1 : Fin 2) * 2048 + 1 * q.val = q.val; rw [e1]; omega

/-- An index of the array is in point `t`'s band of window 15 iff each coordinate is in the band's range. -/
theorem mem_band15 (t : Fin cfg0.N) (i : S8192x2048.Idx) :
    i ∈ ((cfg0.win 15).blk t).view.set ↔ ∀ a : Fin 2, win0_15.index t a * S64x2048.size a ≤ (i a).val ∧ (i a).val < win0_15.index t a * S64x2048.size a + S64x2048.size a := by
  show i ∈ ((View.whole main_v0_3).slice (win0_15.rect t)).set ↔ _
  rw [View.set_slice_whole, Rect.mem_set_unit]
  exact Iff.rfl

/-- Every index of the array is in the band of the point its row falls in. -/
theorem covered15 (i : S8192x2048.Idx) :
    ∃ t : Fin cfg0.N, (cfg0.win 15).flush t = true ∧ i ∈ ((cfg0.win 15).blk t).view.set := by
  have hi0 : (i 0).val < 8192 := (i 0).isLt
  have hi1 : (i 1).val < 2048 := (i 1).isLt
  have hN : cfg0.N = 128 := N_0
  refine ⟨⟨(i 0).val / 64, by rw [hN]; omega⟩, flush0_15 _, ?_⟩
  obtain ⟨e0, e1⟩ := band_index15 ⟨(i 0).val / 64, by rw [hN]; omega⟩
  rw [mem_band15]
  intro a
  match a with
  | ⟨0, _⟩ =>
    show win0_15.index _ (0 : Fin 2) * 64 ≤ (i 0).val ∧ (i 0).val < win0_15.index _ (0 : Fin 2) * 64 + 64
    rw [e0]
    show (i 0).val / 64 * 64 ≤ (i 0).val ∧ (i 0).val < (i 0).val / 64 * 64 + 64
    omega
  | ⟨1, _⟩ =>
    show win0_15.index _ (1 : Fin 2) * 2048 ≤ (i 1).val ∧ (i 1).val < win0_15.index _ (1 : Fin 2) * 2048 + 2048
    rw [e1]
    omega

/-- Entry (p, q) of output window 16's block at point `t` is entry (64·t + p, q) of its array. -/
theorem band_place16 (t : Fin cfg0.N) (p : Fin 64) (q : Fin 2048) :
    ((cfg0.win 16).blk t).view.emb (ix2 p q) = ix2 (rowOf t p) q := by
  refine funext fun a => Fin.ext ?_
  obtain ⟨e0, e1⟩ := band_index16 t
  match a with
  | ⟨0, _⟩ => show win0_16.index t (0 : Fin 2) * 64 + 1 * p.val = t.val * 64 + p.val; rw [e0]; omega
  | ⟨1, _⟩ => show win0_16.index t (1 : Fin 2) * 2048 + 1 * q.val = q.val; rw [e1]; omega

/-- An index of the array is in point `t`'s band of window 16 iff each coordinate is in the band's range. -/
theorem mem_band16 (t : Fin cfg0.N) (i : S8192x2048.Idx) :
    i ∈ ((cfg0.win 16).blk t).view.set ↔ ∀ a : Fin 2, win0_16.index t a * S64x2048.size a ≤ (i a).val ∧ (i a).val < win0_16.index t a * S64x2048.size a + S64x2048.size a := by
  show i ∈ ((View.whole main_call0_v10_3).slice (win0_16.rect t)).set ↔ _
  rw [View.set_slice_whole, Rect.mem_set_unit]
  exact Iff.rfl

/-- Every index of the array is in the band of the point its row falls in. -/
theorem covered16 (i : S8192x2048.Idx) :
    ∃ t : Fin cfg0.N, (cfg0.win 16).flush t = true ∧ i ∈ ((cfg0.win 16).blk t).view.set := by
  have hi0 : (i 0).val < 8192 := (i 0).isLt
  have hi1 : (i 1).val < 2048 := (i 1).isLt
  have hN : cfg0.N = 128 := N_0
  refine ⟨⟨(i 0).val / 64, by rw [hN]; omega⟩, flush0_16 _, ?_⟩
  obtain ⟨e0, e1⟩ := band_index16 ⟨(i 0).val / 64, by rw [hN]; omega⟩
  rw [mem_band16]
  intro a
  match a with
  | ⟨0, _⟩ =>
    show win0_16.index _ (0 : Fin 2) * 64 ≤ (i 0).val ∧ (i 0).val < win0_16.index _ (0 : Fin 2) * 64 + 64
    rw [e0]
    show (i 0).val / 64 * 64 ≤ (i 0).val ∧ (i 0).val < (i 0).val / 64 * 64 + 64
    omega
  | ⟨1, _⟩ =>
    show win0_16.index _ (1 : Fin 2) * 2048 ≤ (i 1).val ∧ (i 1).val < win0_16.index _ (1 : Fin 2) * 2048 + 2048
    rw [e1]
    omega

/-! ## The new numerator -/

section Numerator
variable (c : Dev nD) (TD : Row 2048) (hTD : ∀ q : Fin 2048, V c main_call0_v0 (ix2 (0 : Fin 1) q) = TD (ix1 q))
include hTD

/-- What point `t` writes back to the numerator array is band `t` of the specification's array. -/
theorem numerator_band (t : Fin cfg0.N) :
    (dat0 V c).flushed 13 t = ((cfg0.win 13).blk t).view.read (Elt Ideal)
      (NewA (V c main_arg0) (V c main_arg1) (V c main_arg3) (V c main_arg4) TD (V c main_arg7) (V c main_arg8)
        (V c main_call0_v3) (V c main_call0_v5)) := by
  show (cfg0.win 13).cut (grid0.coords t) ((dat0 V c).after 13 t) = _
  rw [after0_13]
  unfold out0_13
  rw [View.canon_unit_zero origin]
  simp only [View.ld_unit_zero (S := S64x2048) origin, View.ld_unit_zero (S := S1x2048) origin,
    View.ld_unit_zero (S := S2048x2048) origin]
  funext j
  obtain ⟨p, q, rfl⟩ : ∃ (p : Fin 64) (q : Fin 2048), j = ix2 p q := ⟨j 0, j 1, eq_ix2 j⟩
  refine (Body.numerator_entry (iblk0 V c 0 t) (iblk0 V c 1 t) (iblk0 V c 2 t) (iblk0 V c 4 t) (iblk0 V c 5 t)
    (iblk0 V c 6 t) (iblk0 V c 8 t) (iblk0 V c 10 t) (iblk0 V c 11 t)
    (V c main_arg0) (V c main_arg1) (V c main_arg3) (V c main_arg4) TD (V c main_arg7) (V c main_arg8)
    (V c main_call0_v3) (V c main_call0_v5) (rowOf t p) p q
    (fun l => band_read0 V c t p l) (fun l => band_read1 V c t p l) (band_read2 V c t p q) (band_read4 V c t p q)
    (fun l => whole_read5 V c t _) (fun l => whole_read6 V c t _) ((whole_read8 V c t _).trans (hTD q))
    (fun l => whole_read10 V c t _) (fun l => whole_read11 V c t _)).trans ?_
  show _ = NewA _ _ _ _ _ _ _ _ _ (((cfg0.win 13).blk t).view.emb (ix2 p q))
  rw [band_place13]

/-- The numerator array after the launch. -/
theorem numerator_array :
    (dat0 V c).arrAt 13 cfg0.N
      = NewA (V c main_arg0) (V c main_arg1) (V c main_arg3) (V c main_arg4) TD (V c main_arg7) (V c main_arg8)
          (V c main_call0_v3) (V c main_call0_v5) :=
  (dat0 V c).arrAt_eq_of_cover 13 _ (fun t _ => numerator_band V c TD hTD t) covered13

end Numerator

/-! ## The new denominator -/

section Denominator
variable (c : Dev nD) (TD : Row 2048) (hTD : ∀ q : Fin 2048, V c main_call0_v0 (ix2 (0 : Fin 1) q) = TD (ix1 q))
include hTD

/-- What point `t` writes back to the denominator array is band `t` of the specification's array. -/
theorem denominator_band (t : Fin cfg0.N) :
    (dat0 V c).flushed 14 t = ((cfg0.win 14).blk t).view.read (Elt Ideal)
      (NewB (V c main_arg0) (V c main_arg2) (V c main_arg3) (V c main_arg4) TD (V c main_arg7) (V c main_call0_v3)) := by
  show (cfg0.win 14).cut (grid0.coords t) ((dat0 V c).after 14 t) = _
  rw [after0_14]
  unfold out0_14
  rw [View.canon_unit_zero origin]
  simp only [View.ld_unit_zero (S := S64x2048) origin, View.ld_unit_zero (S := S1x2048) origin,
    View.ld_unit_zero (S := S2048x2048) origin]
  funext j
  obtain ⟨p, q, rfl⟩ : ∃ (p : Fin 64) (q : Fin 2048), j = ix2 p q := ⟨j 0, j 1, eq_ix2 j⟩
  refine (Body.denominator_entry (iblk0 V c 0 t) (iblk0 V c 1 t) (iblk0 V c 3 t) (iblk0 V c 4 t) (iblk0 V c 5 t) (iblk0 V c 8 t) (iblk0 V c 10 t)
    (V c main_arg0) (V c main_arg2) (V c main_arg3) (V c main_arg4) TD (V c main_arg7) (V c main_call0_v3) (rowOf t p) p q
    (fun l => band_read0 V c t p l) (fun l => band_read1 V c t p l) (band_read3 V c t p q) (band_read4 V c t p q)
    (fun l => whole_read5 V c t _) ((whole_read8 V c t _).trans (hTD q)) (fun l => whole_read10 V c t _)).trans ?_
  show _ = NewB _ _ _ _ _ _ _ (((cfg0.win 14).blk t).view.emb (ix2 p q))
  rw [band_place14]

/-- The denominator array after the launch. -/
theorem denominator_array :
    (dat0 V c).arrAt 14 cfg0.N
      = NewB (V c main_arg0) (V c main_arg2) (V c main_arg3) (V c main_arg4) TD (V c main_arg7) (V c main_call0_v3) :=
  (dat0 V c).arrAt_eq_of_cover 14 _ (fun t _ => denominator_band V c TD hTD t) covered14

end Denominator

/-! ## The new exponent -/

section Exponent
variable (c : Dev nD) (TD : Row 2048) (hTD : ∀ q : Fin 2048, V c main_call0_v0 (ix2 (0 : Fin 1) q) = TD (ix1 q))
include hTD

/-- What point `t` writes back to the exponent array is band `t` of the specification's array. -/
theorem exponent_band (t : Fin cfg0.N) :
    (dat0 V c).flushed 15 t = ((cfg0.win 15).blk t).view.read (Elt Ideal)
      (NewP (V c main_arg0) (V c main_arg3) (V c main_arg4) TD (V c main_arg7) (V c main_call0_v3)) := by
  show (cfg0.win 15).cut (grid0.coords t) ((dat0 V c).after 15 t) = _
  rw [after0_15]
  unfold out0_15
  rw [View.canon_unit_zero origin]
  simp only [View.ld_unit_zero (S := S64x2048) origin, View.ld_unit_zero (S := S1x2048) origin,
    View.ld_unit_zero (S := S2048x2048) origin]
  funext j
  obtain ⟨p, q, rfl⟩ : ∃ (p : Fin 64) (q : Fin 2048), j = ix2 p q := ⟨j 0, j 1, eq_ix2 j⟩
  refine (Body.exponent_entry (iblk0 V c 0 t) (iblk0 V c 1 t) (iblk0 V c 4 t) (iblk0 V c 5 t) (iblk0 V c 8 t) (iblk0 V c 10 t)
    (V c main_arg0) (V c main_arg3) (V c main_arg4) TD (V c main_arg7) (V c main_call0_v3) (rowOf t p) p q
    (fun l => band_read0 V c t p l) (fun l => band_read1 V c t p l) (band_read4 V c t p q)
    (fun l => whole_read5 V c t _) ((whole_read8 V c t _).trans (hTD q)) (fun l => whole_read10 V c t _)).trans ?_
  show _ = NewP _ _ _ _ _ _ (((cfg0.win 15).blk t).view.emb (ix2 p q))
  rw [band_place15]

/-- The exponent array after the launch. -/
theorem exponent_array :
    (dat0 V c).arrAt 15 cfg0.N
      = NewP (V c main_arg0) (V c main_arg3) (V c main_arg4) TD (V c main_arg7) (V c main_call0_v3) :=
  (dat0 V c).arrAt_eq_of_cover 15 _ (fun t _ => exponent_band V c TD hTD t) covered15

end Exponent

/-! ## The gated average -/

section GatedAverage
variable (c : Dev nD) (TF : Row 2048) (hTF : ∀ q : Fin 2048, V c main_call0_v1 (ix2 (0 : Fin 1) q) = TF (ix1 q))
include hTF

/-- What point `t` writes back to the gated average's array is band `t` of the specification's array. -/
theorem gated_band (t : Fin cfg0.N) :
    (dat0 V c).flushed 16 t = ((cfg0.win 16).blk t).view.read (Elt Ideal)
      (Gated (V c main_arg0) (V c main_arg1) (V c main_arg2) (V c main_arg3) (V c main_arg4) TF
        (V c main_arg7) (V c main_arg8) (V c main_arg9) (V c main_call0_v3) (V c main_call0_v5) (V c main_call0_v7)) := by
  show (cfg0.win 16).cut (grid0.coords t) ((dat0 V c).after 16 t) = _
  rw [after0_16]
  unfold out0_16
  rw [View.canon_unit_zero origin]
  simp only [View.ld_unit_zero (S := S64x2048) origin, View.ld_unit_zero (S := S1x2048) origin,
    View.ld_unit_zero (S := S2048x2048) origin]
  funext j
  obtain ⟨p, q, rfl⟩ : ∃ (p : Fin 64) (q : Fin 2048), j = ix2 p q := ⟨j 0, j 1, eq_ix2 j⟩
  refine (Body.gated_entry (iblk0 V c 0 t) (iblk0 V c 1 t) (iblk0 V c 2 t) (iblk0 V c 3 t) (iblk0 V c 4 t) (iblk0 V c 5 t) (iblk0 V c 6 t) (iblk0 V c 7 t) (iblk0 V c 9 t)
    (iblk0 V c 10 t) (iblk0 V c 11 t) (iblk0 V c 12 t)
    (V c main_arg0) (V c main_arg1) (V c main_arg2) (V c main_arg3) (V c main_arg4) TF
    (V c main_arg7) (V c main_arg8) (V c main_arg9) (V c main_call0_v3) (V c main_call0_v5) (V c main_call0_v7)
    (rowOf t p) p q
    (fun l => band_read0 V c t p l) (fun l => band_read1 V c t p l) (band_read2 V c t p q) (band_read3 V c t p q)
    (band_read4 V c t p q)
    (fun l => whole_read5 V c t _) (fun l => whole_read6 V c t _) (fun l => whole_read7 V c t _)
    ((whole_read9 V c t _).trans (hTF q))
    (fun l => whole_read10 V c t _) (fun l => whole_read11 V c t _) (fun l => whole_read12 V c t _)).trans ?_
  show _ = Gated _ _ _ _ _ _ _ _ _ _ _ _ (((cfg0.win 16).blk t).view.emb (ix2 p q))
  rw [band_place16]

/-- The gated average's array after the launch. -/
theorem gated_array :
    (dat0 V c).arrAt 16 cfg0.N
      = Gated (V c main_arg0) (V c main_arg1) (V c main_arg2) (V c main_arg3) (V c main_arg4) TF
          (V c main_arg7) (V c main_arg8) (V c main_arg9) (V c main_call0_v3) (V c main_call0_v5) (V c main_call0_v7) :=
  (dat0 V c).arrAt_eq_of_cover 16 _ (fun t _ => gated_band V c TF hTF t) covered16

end GatedAverage

end Cert.KernelIdeal.StageOne

end
-- ==== Proof.StageTwoArray.lean ====
/-
  The second launch: the output projection.

  The launch runs over an 8 by 2 grid; point (a, b) is handed rows 1024·a … 1024·a + 1023 of the gated average (all
  2048 channels) and columns 1024·b … 1024·b + 1023 of the transposed output weight (all 2048 rows), multiplies them
  into the zero accumulator and writes the 1024 by 1024 tile (a, b) of the result. At an entry this is the plain sum
  over the channels of row r of the gated average times column s of the weight, and the sixteen tiles fill the
  result array: it ends at the specification's output projection of the two arrays the launch finds.
-/
import proofs.«158671_j6536940224793_2_alg».proof.Proof.Gen.KernelIdeal.Frame
import proofs.«158671_j6536940224793_2_alg».proof.Proof.TimeMixSpec
import proofs.«158671_j6536940224793_2_alg».proof.Proof.LibMatmulRowsByCols
import Idealize.ShloMosaic.Lib.Pipeline.Value
import Idealize.ShloMosaic.Lib.ValueIdx

set_option maxRecDepth 16384

noncomputable section

namespace Cert.KernelIdeal.StageTwo

open Cert.KernelIdeal Cert.KernelIdeal.Gen
open Idealize.ShloMosaic Idealize.ShloMosaic.TcCoe Idealize.SL.Sem Idealize.ShloMosaic.ValueIdx Cert.TimeMix
open Idealize.ShloMosaic.Pipeline (Dat Cfg Window)

/-! ## The tile product at an entry -/

theorem lhs0 (i : S1024x1024.Idx) (q : (dot_S1024x2048_S2048x1024_S1024x1024_1_0_0_1_n_n).contr.Idx) :
    ((dot_S1024x2048_S2048x1024_S1024x1024_1_0_0_1_n_n).lhsIdx i q 0).val = (i 0).val := by
  unfold DotDims.lhsIdx
  rw [dif_neg (show ¬(0 : Fin S1024x2048.rank) ∈ (dot_S1024x2048_S2048x1024_S1024x1024_1_0_0_1_n_n).lhsBatch by decide),
    dif_pos (show (0 : Fin S1024x2048.rank) ∈ (dot_S1024x2048_S2048x1024_S1024x1024_1_0_0_1_n_n).lhsNonContracting by decide)]
  rfl
theorem lhs1 (i : S1024x1024.Idx) (q : (dot_S1024x2048_S2048x1024_S1024x1024_1_0_0_1_n_n).contr.Idx) :
    ((dot_S1024x2048_S2048x1024_S1024x1024_1_0_0_1_n_n).lhsIdx i q 1).val = (q ⟨0, by decide⟩).val :=
  (dot_S1024x2048_S2048x1024_S1024x1024_1_0_0_1_n_n).lhsIdx_val_of_single rfl i q
theorem rhs0 (i : S1024x1024.Idx) (q : (dot_S1024x2048_S2048x1024_S1024x1024_1_0_0_1_n_n).contr.Idx) :
    ((dot_S1024x2048_S2048x1024_S1024x1024_1_0_0_1_n_n).rhsIdx i q 0).val = (q ⟨0, by decide⟩).val :=
  (dot_S1024x2048_S2048x1024_S1024x1024_1_0_0_1_n_n).rhsIdx_val_of_single rfl i q
theorem rhs1 (i : S1024x1024.Idx) (q : (dot_S1024x2048_S2048x1024_S1024x1024_1_0_0_1_n_n).contr.Idx) :
    ((dot_S1024x2048_S2048x1024_S1024x1024_1_0_0_1_n_n).rhsIdx i q 1).val = (i 1).val := by
  unfold DotDims.rhsIdx
  rw [dif_neg (show ¬(1 : Fin S2048x1024.rank) ∈ (dot_S1024x2048_S2048x1024_S1024x1024_1_0_0_1_n_n).rhsBatch by decide),
    dif_pos (show (1 : Fin S2048x1024.rank) ∈ (dot_S1024x2048_S2048x1024_S1024x1024_1_0_0_1_n_n).rhsNonContracting by decide)]
  rfl

/-- A product of 1024 rows by 1024 columns over 2048 channels into the zero accumulator, at entry (p, q). -/
theorem product_at (l : FVec Ideal S1024x2048 .bf16) (r : FVec Ideal S2048x1024 .bf16) (p q : Fin 1024) :
    matmul (φ₁ := .bf16) (φ₂ := .bf16) dot_S1024x2048_S2048x1024_S1024x1024_1_0_0_1_n_n none l r
        (constant (F := Ideal) S1024x1024 .f32 0x00000000#32) (ix2 p q)
      = ∑ k : Fin 2048, l (ix2 p k) * r (ix2 k q) :=
  MatmulRowsByCols.matmul_zero_apply dot_S1024x2048_S2048x1024_S1024x1024_1_0_0_1_n_n rfl rfl lhs0 lhs1 rhs0 rhs1 none l r p q

/-- A tile's entry (p, q) against the whole arrays: `r` and `s` are the row and the column of the result that the
    tile's row p and column q are. -/
theorem tile_entry (x0 : Vec Ideal S1024x2048 .bf16) (x1 : Vec Ideal S2048x1024 .bf16) (G : Mat 8192 2048)
    (WT : Mat 2048 2048) (r : Fin 8192) (s : Fin 2048) (p q : Fin 1024)
    (h0 : ∀ l : Fin 2048, x0 (ix2 p l) = G (ix2 r l)) (h1 : ∀ l : Fin 2048, x1 (ix2 l q) = WT (ix2 l s)) :
    k1_pay1 (F := Ideal) x0 x1 (ix2 p q) = Out G WT (ix2 r s) := by
  have e : k1_pay1 (F := Ideal) x0 x1
      = matmul (φ₁ := .bf16) (φ₂ := .bf16) dot_S1024x2048_S2048x1024_S1024x1024_1_0_0_1_n_n none x0 x1
          (constant (F := Ideal) S1024x1024 .f32 0x00000000#32) := by
    unfold k1_pay1
    rw [shapeCast_self, shapeCast_self]
  rw [e, product_at]
  show _ = ∑ l : Fin 2048, G (ix2 r l) * WT (ix2 l s)
  exact Finset.sum_congr rfl fun l _ => by rw [h0, h1]

/-! ## The tiles over the grid -/

-- the contents of the TensorCore's buffers when the launch is entered
variable (V : (c : Dev nD) → (b : Ref sig .tc) → Buf (Elt Ideal) ((c : Thread nD τ).loc b))

theorem origin : (![0, 0] : Fin 2 → Nat) = fun _ => 0 := funext fun a => by fin_cases a <;> rfl

/-- The index maps, decided over the sixteen points: the left operand's band follows the tile's row, the right
    operand's band the tile's column. -/
theorem index_facts : ∀ t : Fin cfg1.N, win1_0.index t (0 : Fin 2) = win1_2.index t (0 : Fin 2)
    ∧ win1_0.index t (1 : Fin 2) = 0 ∧ win1_1.index t (0 : Fin 2) = 0
    ∧ win1_1.index t (1 : Fin 2) = win1_2.index t (1 : Fin 2)
    ∧ win1_2.index t (0 : Fin 2) ≤ 7 ∧ win1_2.index t (1 : Fin 2) ≤ 1 :=
  (by decide +kernel : ∀ t : Fin grid1.N, _)

/-- Every tile is some point's. -/
theorem index_onto : ∀ (q0 : Fin 8) (q1 : Fin 2), ∃ t : Fin cfg1.N, win1_2.index t = ![q0.val, q1.val] :=
  (by decide +kernel : ∀ (q0 : Fin 8) (q1 : Fin 2), ∃ t : Fin grid1.N, win1_2.index t = ![q0.val, q1.val])

/-- The result row that row `p` of point `t`'s tile is. -/
def rowOf (t : Fin cfg1.N) (p : Fin 1024) : Fin 8192 :=
  ⟨win1_2.index t (0 : Fin 2) * 1024 + p.val, by
    have h := (index_facts t).2.2.2.2.1
    have hp := p.isLt
    omega⟩
/-- The result column that column `q` of point `t`'s tile is. -/
def colOf (t : Fin cfg1.N) (q : Fin 1024) : Fin 2048 :=
  ⟨win1_2.index t (1 : Fin 2) * 1024 + q.val, by
    have h := (index_facts t).2.2.2.2.2
    have hq := q.isLt
    omega⟩

/-- The left operand's block at point `t`: the tile's rows of the gated average, every channel. -/
theorem left_read (c : Dev nD) (t : Fin cfg1.N) (p : Fin 1024) (l : Fin 2048) :
    iblk1 V c 0 t (ix2 p l) = V c main_call0_v10_3 (ix2 (rowOf t p) l) := by
  show V c main_call0_v10_3 (((cfg1.win 0).blk t).view.emb (ix2 p l)) = _
  refine congrArg (V c main_call0_v10_3) (funext fun a => Fin.ext ?_)
  obtain ⟨e0, e1, e2, e3, e4, e5⟩ := index_facts t
  match a with
  | ⟨0, _⟩ => show win1_0.index t (0 : Fin 2) * 1024 + 1 * p.val = win1_2.index t (0 : Fin 2) * 1024 + p.val; rw [e0]; omega
  | ⟨1, _⟩ => show win1_0.index t (1 : Fin 2) * 2048 + 1 * l.val = l.val; rw [e1]; omega

/-- The right operand's block at point `t`: the tile's columns of the weight, every row. -/
theorem right_read (c : Dev nD) (t : Fin cfg1.N) (l : Fin 2048) (q : Fin 1024) :
    iblk1 V c 1 t (ix2 l q) = V c main_call0_v9 (ix2 l (colOf t q)) := by
  show V c main_call0_v9 (((cfg1.win 1).blk t).view.emb (ix2 l q)) = _
  refine congrArg (V c main_call0_v9) (funext fun a => Fin.ext ?_)
  obtain ⟨e0, e1, e2, e3, e4, e5⟩ := index_facts t
  match a with
  | ⟨0, _⟩ => show win1_1.index t (0 : Fin 2) * 2048 + 1 * l.val = l.val; rw [e2]; omega
  | ⟨1, _⟩ => show win1_1.index t (1 : Fin 2) * 1024 + 1 * q.val = win1_2.index t (1 : Fin 2) * 1024 + q.val; rw [e3]; omega

/-- Entry (p, q) of the tile at point `t` is entry (row, column) of the result. -/
theorem tile_place (t : Fin cfg1.N) (p q : Fin 1024) :
    ((cfg1.win 2).blk t).view.emb (ix2 p q) = ix2 (rowOf t p) (colOf t q) := by
  refine funext fun a => Fin.ext ?_
  match a with
  | ⟨0, _⟩ => show win1_2.index t (0 : Fin 2) * 1024 + 1 * p.val = win1_2.index t (0 : Fin 2) * 1024 + p.val; omega
  | ⟨1, _⟩ => show win1_2.index t (1 : Fin 2) * 1024 + 1 * q.val = win1_2.index t (1 : Fin 2) * 1024 + q.val; omega

/-- What point `t` writes back is tile `t` of the output projection. -/
theorem out_tile (c : Dev nD) (t : Fin cfg1.N) :
    (dat1 V c).flushed 2 t = ((cfg1.win 2).blk t).view.read (Elt Ideal)
      (Out (V c main_call0_v10_3) (V c main_call0_v9)) := by
  show (cfg1.win 2).cut (grid1.coords t) ((dat1 V c).after 2 t) = _
  rw [after1_2]
  unfold out1_2
  rw [View.canon_unit_zero origin]
  simp only [View.ld_unit_zero (S := S1024x2048) origin, View.ld_unit_zero (S := S2048x1024) origin]
  funext j
  obtain ⟨p, q, rfl⟩ : ∃ (p q : Fin 1024), j = ix2 p q := ⟨j 0, j 1, eq_ix2 j⟩
  refine (tile_entry (iblk1 V c 0 t) (iblk1 V c 1 t) (V c main_call0_v10_3) (V c main_call0_v9) (rowOf t p) (colOf t q) p q
    (fun l => left_read V c t p l) (fun l => right_read V c t l q)).trans ?_
  show _ = Out _ _ (((cfg1.win 2).blk t).view.emb (ix2 p q))
  rw [tile_place]

/-- An index of the result is in point `t`'s tile iff each coordinate is in the tile's range. -/
theorem mem_tile (t : Fin cfg1.N) (i : S8192x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v0_0).slice (win1_2.rect t)).set ↔ _
  rw [View.set_slice_whole, Rect.mem_set_unit]
  exact Iff.rfl

/-- The sixteen tiles fill the result. -/
theorem covered (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := index_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_tile]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the launch. -/
theorem out_array (c : Dev nD) :
    (dat1 V c).arrAt 2 cfg1.N = Out (V c main_call0_v10_3) (V c main_call0_v9) :=
  (dat1 V c).arrAt_eq_of_cover 2 _ (fun t _ => out_tile V c t) covered

end Cert.KernelIdeal.StageTwo

end
-- ==== Proof.KernelValue.lean ====
/-
  The idealized kernel's results as functions of its arguments.

  The results are read off the last segment boundary: the output projection's array is what the second launch leaves,
  the three new running quantities what the first launch leaves. The first launch's inputs are eight arguments as
  launched, the decay and the bonus reshaped to one row (entry (0, q) is the vector's entry q), and three transposed
  weights whose narrowing to half width is the identity on the extended reals; the second launch's inputs are the
  gated average the first launch left and the fourth transposed weight. Substituting these, each result is the
  specification's array of the arguments, the weights transposed.
-/
import proofs.«158671_j6536940224793_2_alg».proof.Proof.KernelRun
import proofs.«158671_j6536940224793_2_alg».proof.Proof.KernelEntry
import proofs.«158671_j6536940224793_2_alg».proof.Proof.StageOneArrays
import proofs.«158671_j6536940224793_2_alg».proof.Proof.StageTwoArray
import Idealize.ShloMosaic.Lib.ValueLayout

set_option maxRecDepth 16384

noncomputable section

namespace Cert.KernelIdeal.Outcome

open Cert.KernelIdeal Cert.KernelIdeal.Gen
open Idealize.ShloMosaic Idealize.ShloMosaic.TcCoe Idealize.SL.Sem Idealize.ShloMosaic.ValueIdx Cert.TimeMix

variable (m : (ℓ : Loc nD τ sig) → Buf (Elt Ideal) ℓ) (ρ : Dev nD → PrngReg)

/-- A square weight matrix transposed, as the host transposes it. -/
abbrev tr (W : (⟨S2048x2048, .f32⟩ : BufTy).Contents (Elt Ideal)) : Mat 2048 2048 :=
  transpose S2048x2048 [1, 0] W transposes_S2048x2048_S2048x2048_1_0

/-- Narrowing to half width is the identity on the extended reals. -/
theorem narrowed (W : (⟨S2048x2048, .f32⟩ : BufTy).Contents (Elt Ideal)) :
    (truncf .bf16 (transpose S2048x2048 [1, 0] W transposes_S2048x2048_S2048x2048_1_0) bitsLt_bf16_f32 : FVec Ideal S2048x2048 .bf16)
      = tr W := rfl

/-- A vector reshaped to one row reads, at (0, q), the vector at q. -/
theorem one_row (x : (⟨S2048, .f32⟩ : BufTy).Contents (Elt Ideal)) (q : Fin 2048) :
    shapeCast S1x2048 x shapeCasts_S2048_S1x2048 (ix2 (0 : Fin 1) q) = x (ix1 q) :=
  shapeCast_a_1a_apply x shapeCasts_S2048_S1x2048 0 q

section Results
variable (c : Dev nD)

theorem decay_row (q : Fin 2048) : V1 m ρ c main_call0_v0 (ix2 (0 : Fin 1) q) = (m ((c : Thread nD τ).loc main_arg5)) (ix1 q) := by
  rw [Entry.first_decay]; exact one_row _ q
theorem bonus_row (q : Fin 2048) : V1 m ρ c main_call0_v1 (ix2 (0 : Fin 1) q) = (m ((c : Thread nD τ).loc main_arg6)) (ix1 q) := by
  rw [Entry.first_bonus]; exact one_row _ q

/-- The new numerator. -/
theorem numerator :
    W3 m ρ c (Proc.devRef .tc main_v0_1)
      = NewA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8))
          (tr (m ((c : Thread nD τ).loc main_arg10))) (tr (m ((c : Thread nD τ).loc main_arg11))) := by
  rw [Entry.last_numerator, StageOne.numerator_array (V1 m ρ) c (m ((c : Thread nD τ).loc main_arg5)) (decay_row m ρ c),
    Entry.first_main_arg0, Entry.first_main_arg1, Entry.first_main_arg3, Entry.first_main_arg4, Entry.first_main_arg7,
    Entry.first_main_arg8, Entry.first_weight_k, Entry.first_weight_v, narrowed, narrowed]

/-- The new denominator. -/
theorem denominator :
    W3 m ρ c (Proc.devRef .tc main_v0_2)
      = NewB (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (tr (m ((c : Thread nD τ).loc main_arg10))) := by
  rw [Entry.last_denominator, StageOne.denominator_array (V1 m ρ) c (m ((c : Thread nD τ).loc main_arg5)) (decay_row m ρ c),
    Entry.first_main_arg0, Entry.first_main_arg2, Entry.first_main_arg3, Entry.first_main_arg4, Entry.first_main_arg7,
    Entry.first_weight_k, narrowed]

/-- The new exponent. -/
theorem exponent :
    W3 m ρ c (Proc.devRef .tc main_v0_3)
      = NewP (m ((c : Thread nD τ).loc main_arg0)) (m ((c : Thread nD τ).loc main_arg3)) (m ((c : Thread nD τ).loc main_arg4)) (m ((c : Thread nD τ).loc main_arg5)) (m ((c : Thread nD τ).loc main_arg7)) (tr (m ((c : Thread nD τ).loc main_arg10))) := by
  rw [Entry.last_exponent, StageOne.exponent_array (V1 m ρ) c (m ((c : Thread nD τ).loc main_arg5)) (decay_row m ρ c),
    Entry.first_main_arg0, Entry.first_main_arg3, Entry.first_main_arg4, Entry.first_main_arg7,
    Entry.first_weight_k, narrowed]

/-- The output: the gated average times the transposed output weights. -/
theorem output :
    W3 m ρ c (Proc.devRef .tc main_v0_0)
      = Out (Gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
          (m ((c : Thread nD τ).loc main_arg7)) (m ((c : Thread nD τ).loc main_arg8)) (m ((c : Thread nD τ).loc main_arg9)) (tr (m ((c : Thread nD τ).loc main_arg10))) (tr (m ((c : Thread nD τ).loc main_arg11))) (tr (m ((c : Thread nD τ).loc main_arg12))))
          (tr (m ((c : Thread nD τ).loc main_arg13))) := by
  rw [Entry.last_out, StageTwo.out_array (V2 m ρ) c, Entry.second_gated, Entry.second_weight,
    StageOne.gated_array (V1 m ρ) c (m ((c : Thread nD τ).loc main_arg6)) (bonus_row m ρ c),
    Entry.first_main_arg0, Entry.first_main_arg1, Entry.first_main_arg2, Entry.first_main_arg3, Entry.first_main_arg4,
    Entry.first_main_arg7, Entry.first_main_arg8, Entry.first_main_arg9, Entry.first_weight_k, Entry.first_weight_v,
    Entry.first_weight_r, Entry.first_weight_o, narrowed, narrowed, narrowed, narrowed]

end Results

/-- Every weakly fair execution of the idealized kernel program ends, without a fault, with its four computed results
    at the specification's arrays of the arguments and the arguments as launched. -/
theorem run : θ_run defs (onTc (τ := τ) (main (F := Ideal))) ⟨m, fun _ => 0, ρ⟩ (fun r => ∀ c : Dev nD,
      r.2.mem ((c.tc : Thread nD τ).loc main_v0_0)
        = Out (Gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
            (m ((c : Thread nD τ).loc main_arg7)) (m ((c : Thread nD τ).loc main_arg8)) (m ((c : Thread nD τ).loc main_arg9)) (tr (m ((c : Thread nD τ).loc main_arg10))) (tr (m ((c : Thread nD τ).loc main_arg11))) (tr (m ((c : Thread nD τ).loc main_arg12))))
            (tr (m ((c : Thread nD τ).loc main_arg13)))
      ∧ r.2.mem ((c.tc : Thread nD τ).loc main_v0_1)
        = NewA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8))
            (tr (m ((c : Thread nD τ).loc main_arg10))) (tr (m ((c : Thread nD τ).loc main_arg11)))
      ∧ r.2.mem ((c.tc : Thread nD τ).loc main_v0_2)
        = NewB (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (tr (m ((c : Thread nD τ).loc main_arg10)))
      ∧ r.2.mem ((c.tc : Thread nD τ).loc main_v0_3)
        = NewP (m ((c : Thread nD τ).loc main_arg0)) (m ((c : Thread nD τ).loc main_arg3)) (m ((c : Thread nD τ).loc main_arg4)) (m ((c : Thread nD τ).loc main_arg5)) (m ((c : Thread nD τ).loc main_arg7)) (tr (m ((c : Thread nD τ).loc main_arg10)))
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c).1.trans (output m ρ c), (h c).2.1.trans (numerator m ρ c), (h c).2.2.1.trans (denominator m ρ c),
        (h c).2.2.2.1.trans (exponent m ρ c), (h c).2.2.2.2.1, (h c).2.2.2.2⟩)
    (run_results m ρ)

end Cert.KernelIdeal.Outcome

end
-- ==== Proof.LibLogisticExpanded.lean ====
/-
  The logistic function on the extended reals in its expanded spelling.

  A program that does not use a logistic operation writes σ(z) as 1.0 / (1.0 + exp (-z)), with the f32 word of 1.0 for
  both ones. On the extended reals (division, exponential and negation extended to ±∞ as the ideal instance extends
  them) this is the ideal instance's logistic function, which is what a logistic operation denotes there: the word of
  1.0 is the real number 1, and the rest is the definition. Imports only the ideal instance.
-/
import Idealize.ShloMosaic.PureOps.Ideal

noncomputable section

namespace Cert.Lib.Logistic

open Idealize.ShloMosaic

/-- The f32 word of 1.0 is the extended real 1. -/
theorem one_word : Ideal.ofBits .f32 0x3F800000#32 = 1 := by
  simp [Ideal.ofBits, Ideal.ieee, -EReal.coe_mul]; norm_num

/-- The expanded logistic 1.0 / (1.0 + exp (-z)), both ones the f32 word of 1.0, is the logistic function, for every
    extended real `z` (the infinities included). -/
theorem logistic_expanded (z : EReal) :
    Ideal.div (Ideal.ofBits .f32 0x3F800000#32) (Ideal.ofBits .f32 0x3F800000#32 + Ideal.exp (-z)) = Ideal.logistic z := by
  rw [one_word]; rfl

/-- The same read through the operations of the float interface at the ideal instance, host side: divide, add,
    exponential and negate of the host program. -/
theorem host_logistic_expanded (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z :=
  logistic_expanded z

end Cert.Lib.Logistic

end
-- ==== Proof.RefValue.lean ====
/-
  The reference side of one step of a time-mixing recurrence, read index by index.

  The reference program takes the input x, the previous input sx, the running numerator sA, denominator sB and exponent
  sp (all 8192 by 2048), per-channel decay td and bonus tf (2048 each), three 1 by 2048 mixing rows and four
  2048 by 2048 weight matrices. It mixes every row with the previous one, x·μ + sx·(1 − μ), once for each of three
  projections, multiplies the mixed rows by the transposed weight matrices (k, v, and the gate's argument r), and then
  works entry by entry: with ww = tf + k and p = max(sp, ww) the gated average is
  σ(r) · (e^(sp−p)·sA + e^(ww−p)·v) / (e^(sp−p)·sB + e^(ww−p)), the logistic function written out as
  1 / (1 + e^(−r)); with ww' = sp − e^td and p' = max(ww', k) the new running quantities are
  e^(ww'−p')·sA + e^(k−p')·v, e^(ww'−p')·sB + e^(k−p') and p'. The gated average is finally multiplied by the
  transposed output weights.

  Shown here: each of the program's four computed results, as a function of the argument arrays on the extended reals,
  is the corresponding array of the specification. The two sides perform the same operations in the same order, so
  the proof is bookkeeping: a broadcast of a row reads the row at the column of the index, a matrix product's entry is the
  sum over the contracted coordinate, the written-out logistic is the logistic function, and every other operation acts
  entry by entry. The transposed weight matrices are never read at an index: the specification takes them as given.
-/
import proofs.«158671_j6536940224793_2_alg».proof.Proof.Gen.ReferenceIdeal.Read
import proofs.«158671_j6536940224793_2_alg».proof.Proof.TimeMixSpec
import proofs.«158671_j6536940224793_2_alg».proof.Proof.LibLogisticExpanded
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.TimeMix

/-- A square weight matrix transposed, as the reference program transposes it. -/
abbrev tr (W : (⟨S2048x2048, .f32⟩ : BufTy).Contents (Elt Ideal)) : (⟨S2048x2048, .f32⟩ : BufTy).Contents (Elt Ideal) :=
  transpose S2048x2048 [1, 0] W transposes_S2048x2048_S2048x2048_1_0

/-! ## Where the layout operations read

A row broadcast over the 8192 rows reads the row at the index's column; a vector placed as a 1 by 2048 row reads the
vector at the column; the matrix products read the left factor along the index's row and the right factor down its
column. -/

theorem idx0 (r : Fin 8192) (l : Fin 2048) : idx_main_v0 (ix2 r l) = ix2 (0 : Fin 1) l :=
  funext fun a => Fin.ext (by match a with | ⟨0, _⟩ => rfl | ⟨1, _⟩ => rfl)
theorem idx4 (r : Fin 8192) (l : Fin 2048) : idx_main_v4 (ix2 r l) = ix2 (0 : Fin 1) l :=
  funext fun a => Fin.ext (by match a with | ⟨0, _⟩ => rfl | ⟨1, _⟩ => rfl)
theorem idx7 (r : Fin 8192) (l : Fin 2048) : idx_main_v7 (ix2 r l) = ix2 (0 : Fin 1) l :=
  funext fun a => Fin.ext (by match a with | ⟨0, _⟩ => rfl | ⟨1, _⟩ => rfl)
theorem idx11 (r : Fin 8192) (l : Fin 2048) : idx_main_v11 (ix2 r l) = ix2 (0 : Fin 1) l :=
  funext fun a => Fin.ext (by match a with | ⟨0, _⟩ => rfl | ⟨1, _⟩ => rfl)
theorem idx14 (r : Fin 8192) (l : Fin 2048) : idx_main_v14 (ix2 r l) = ix2 (0 : Fin 1) l :=
  funext fun a => Fin.ext (by match a with | ⟨0, _⟩ => rfl | ⟨1, _⟩ => rfl)
theorem idx18 (r : Fin 8192) (l : Fin 2048) : idx_main_v18 (ix2 r l) = ix2 (0 : Fin 1) l :=
  funext fun a => Fin.ext (by match a with | ⟨0, _⟩ => rfl | ⟨1, _⟩ => rfl)
theorem idx34 (r : Fin 8192) (q : Fin 2048) : idx_main_v34 (ix2 r q) = ix2 (0 : Fin 1) q :=
  funext fun a => Fin.ext (by match a with | ⟨0, _⟩ => rfl | ⟨1, _⟩ => rfl)
theorem idx48 (r : Fin 8192) (q : Fin 2048) : idx_main_v48 (ix2 r q) = ix2 (0 : Fin 1) q :=
  funext fun a => Fin.ext (by match a with | ⟨0, _⟩ => rfl | ⟨1, _⟩ => rfl)
theorem idx33 (u : Fin 1) (q : Fin 2048) : idx_main_v33 (ix2 u q) = ix1 q :=
  funext fun a => Fin.ext (by match a with | ⟨0, _⟩ => rfl)
theorem idx47 (u : Fin 1) (q : Fin 2048) : idx_main_v47 (ix2 u q) = ix1 q :=
  funext fun a => Fin.ext (by match a with | ⟨0, _⟩ => rfl)

theorem lidx22 (r : Fin 8192) (q l : Fin 2048) : lidx_main_v22 (ix2 r q) l = ix2 r l :=
  funext fun a => Fin.ext (by match a with | ⟨0, _⟩ => rfl | ⟨1, _⟩ => rfl)
theorem ridx22 (r : Fin 8192) (q l : Fin 2048) : ridx_main_v22 (ix2 r q) l = ix2 l q :=
  funext fun a => Fin.ext (by match a with | ⟨0, _⟩ => rfl | ⟨1, _⟩ => rfl)
theorem lidx24 (r : Fin 8192) (q l : Fin 2048) : lidx_main_v24 (ix2 r q) l = ix2 r l :=
  funext fun a => Fin.ext (by match a with | ⟨0, _⟩ => rfl | ⟨1, _⟩ => rfl)
theorem ridx24 (r : Fin 8192) (q l : Fin 2048) : ridx_main_v24 (ix2 r q) l = ix2 l q :=
  funext fun a => Fin.ext (by match a with | ⟨0, _⟩ => rfl | ⟨1, _⟩ => rfl)
theorem lidx26 (r : Fin 8192) (q l : Fin 2048) : lidx_main_v26 (ix2 r q) l = ix2 r l :=
  funext fun a => Fin.ext (by match a with | ⟨0, _⟩ => rfl | ⟨1, _⟩ => rfl)
theorem ridx26 (r : Fin 8192) (q l : Fin 2048) : ridx_main_v26 (ix2 r q) l = ix2 l q :=
  funext fun a => Fin.ext (by match a with | ⟨0, _⟩ => rfl | ⟨1, _⟩ => rfl)
theorem lidx63 (r : Fin 8192) (q l : Fin 2048) : lidx_main_v63 (ix2 r q) l = ix2 r l :=
  funext fun a => Fin.ext (by match a with | ⟨0, _⟩ => rfl | ⟨1, _⟩ => rfl)
theorem ridx63 (r : Fin 8192) (q l : Fin 2048) : ridx_main_v63 (ix2 r q) l = ix2 l q :=
  funext fun a => Fin.ext (by match a with | ⟨0, _⟩ => rfl | ⟨1, _⟩ => rfl)

/-! ## The mixed rows -/

/-- The rows mixed for k: `x·μ + sx·(1 − μ)` with the mixing row of k. -/
theorem mixed_k (x0 x4 : (⟨S8192x2048, .f32⟩ : BufTy).Contents (Elt Ideal)) (x7 : (⟨S1x2048, .f32⟩ : BufTy).Contents (Elt Ideal))
    (r : Fin 8192) (l : Fin 2048) :
    val_main_v6 (F := Ideal) x0 x4 x7 (ix2 r l) = mix (x0 (ix2 r l)) (x4 (ix2 r l)) (x7 (ix2 (0 : Fin 1) l)) := by
  rw [val_main_v6_apply, val_main_v1_apply, val_main_v0_apply, idx0, val_main_v5_apply, val_main_v4_apply, idx4,
    val_main_v3_apply, val_main_v2_apply, val_main_cst_apply]
  rfl

/-- The rows mixed for v. -/
theorem mixed_v (x0 x4 : (⟨S8192x2048, .f32⟩ : BufTy).Contents (Elt Ideal)) (x8 : (⟨S1x2048, .f32⟩ : BufTy).Contents (Elt Ideal))
    (r : Fin 8192) (l : Fin 2048) :
    val_main_v13 (F := Ideal) x0 x4 x8 (ix2 r l) = mix (x0 (ix2 r l)) (x4 (ix2 r l)) (x8 (ix2 (0 : Fin 1) l)) := by
  rw [val_main_v13_apply, val_main_v8_apply, val_main_v7_apply, idx7, val_main_v12_apply, val_main_v11_apply, idx11,
    val_main_v10_apply, val_main_v9_apply, val_main_cst_0_apply]
  rfl

/-- The rows mixed for the gate. -/
theorem mixed_r (x0 x4 : (⟨S8192x2048, .f32⟩ : BufTy).Contents (Elt Ideal)) (x9 : (⟨S1x2048, .f32⟩ : BufTy).Contents (Elt Ideal))
    (r : Fin 8192) (l : Fin 2048) :
    val_main_v20 (F := Ideal) x0 x4 x9 (ix2 r l) = mix (x0 (ix2 r l)) (x4 (ix2 r l)) (x9 (ix2 (0 : Fin 1) l)) := by
  rw [val_main_v20_apply, val_main_v15_apply, val_main_v14_apply, idx14, val_main_v19_apply, val_main_v18_apply, idx18,
    val_main_v17_apply, val_main_v16_apply, val_main_cst_1_apply]
  rfl

/-! ## The three projections -/

/-- k: the rows mixed for k times the transposed weights of k. -/
theorem k_at (x0 x4 : (⟨S8192x2048, .f32⟩ : BufTy).Contents (Elt Ideal)) (x7 : (⟨S1x2048, .f32⟩ : BufTy).Contents (Elt Ideal))
    (x10 : (⟨S2048x2048, .f32⟩ : BufTy).Contents (Elt Ideal)) (r : Fin 8192) (q : Fin 2048) :
    val_main_v22 (F := Ideal) x0 x4 x7 x10 (ix2 r q) = proj x0 x4 x7 (tr x10) r q := by
  rw [val_main_v22_apply]
  refine Finset.sum_congr rfl fun l _ => ?_
  rw [lidx22, ridx22, mixed_k]
  rfl

/-- v: the rows mixed for v times the transposed weights of v. -/
theorem v_at (x0 x4 : (⟨S8192x2048, .f32⟩ : BufTy).Contents (Elt Ideal)) (x8 : (⟨S1x2048, .f32⟩ : BufTy).Contents (Elt Ideal))
    (x11 : (⟨S2048x2048, .f32⟩ : BufTy).Contents (Elt Ideal)) (r : Fin 8192) (q : Fin 2048) :
    val_main_v24 (F := Ideal) x0 x4 x8 x11 (ix2 r q) = proj x0 x4 x8 (tr x11) r q := by
  rw [val_main_v24_apply]
  refine Finset.sum_congr rfl fun l _ => ?_
  rw [lidx24, ridx24, mixed_v]
  rfl

/-- The gate's argument: the rows mixed for the gate times the transposed weights of the gate. -/
theorem r_at (x0 x4 : (⟨S8192x2048, .f32⟩ : BufTy).Contents (Elt Ideal)) (x9 : (⟨S1x2048, .f32⟩ : BufTy).Contents (Elt Ideal))
    (x12 : (⟨S2048x2048, .f32⟩ : BufTy).Contents (Elt Ideal)) (r : Fin 8192) (q : Fin 2048) :
    val_main_v26 (F := Ideal) x0 x4 x9 x12 (ix2 r q) = proj x0 x4 x9 (tr x12) r q := by
  rw [val_main_v26_apply]
  refine Finset.sum_congr rfl fun l _ => ?_
  rw [lidx26, ridx26, mixed_r]
  rfl

/-! ## The per-channel rows and the gate -/

/-- The bonus broadcast over the rows: entry `(r, q)` is the bonus of channel `q`. -/
theorem bonus_at (x6 : (⟨S2048, .f32⟩ : BufTy).Contents (Elt Ideal)) (r : Fin 8192) (q : Fin 2048) :
    val_main_v34 (F := Ideal) x6 (ix2 r q) = x6 (ix1 q) := by
  rw [val_main_v34_apply, idx34, val_main_v33_apply, idx33]

/-- The exponential of the decay broadcast over the rows: entry `(r, q)` is `e^td` of channel `q`. -/
theorem decay_at (x5 : (⟨S2048, .f32⟩ : BufTy).Contents (Elt Ideal)) (r : Fin 8192) (q : Fin 2048) :
    val_main_v48 (F := Ideal) x5 (ix2 r q) = Ideal.exp (x5 (ix1 q)) := by
  rw [val_main_v48_apply, idx48, val_main_v47_apply, idx47, val_main_v46_apply]
  rfl

/-- The gate: the reference writes the logistic function out as `1 / (1 + e^(−z))`, which on the extended reals is
    the logistic function of the gate's argument. -/
theorem gate_at (x0 x4 : (⟨S8192x2048, .f32⟩ : BufTy).Contents (Elt Ideal)) (x9 : (⟨S1x2048, .f32⟩ : BufTy).Contents (Elt Ideal))
    (x12 : (⟨S2048x2048, .f32⟩ : BufTy).Contents (Elt Ideal)) (i : S8192x2048.Idx) :
    val_main_v32 (F := Ideal) x0 x4 x9 x12 i = Ideal.logistic (val_main_v26 (F := Ideal) x0 x4 x9 x12 i) := by
  rw [val_main_v32_apply, val_main_v31_apply, val_main_cst_3_apply, val_main_v30_apply, val_main_v29_apply,
    val_main_cst_2_apply, val_main_v28_apply, val_main_v27_apply]
  exact Cert.Lib.Logistic.host_logistic_expanded _

/-! ## The entrywise step

Each result at entry `(r, q)` is the specification's scalar function of the projections' entries there, the running
quantities' entries and the channel's decay or bonus. The reference performs the specification's operations in the
specification's order, so once every stage is read at the entry the two sides are the same term. -/

/-- The new exponent `max (sp − e^td) k`. -/
theorem newP_at (x0 x3 x4 : (⟨S8192x2048, .f32⟩ : BufTy).Contents (Elt Ideal)) (x5 : (⟨S2048, .f32⟩ : BufTy).Contents (Elt Ideal))
    (x7 : (⟨S1x2048, .f32⟩ : BufTy).Contents (Elt Ideal)) (x10 : (⟨S2048x2048, .f32⟩ : BufTy).Contents (Elt Ideal))
    (r : Fin 8192) (q : Fin 2048) :
    val_main_v50 (F := Ideal) x0 x3 x4 x5 x7 x10 (ix2 r q)
      = newP (val_main_v22 (F := Ideal) x0 x4 x7 x10 (ix2 r q)) (x3 (ix2 r q)) (x5 (ix1 q)) := by
  rw [val_main_v50_apply, val_main_v49_apply, decay_at]
  rfl

/-- The new numerator. -/
theorem newA_at (x0 x1 x3 x4 : (⟨S8192x2048, .f32⟩ : BufTy).Contents (Elt Ideal)) (x5 : (⟨S2048, .f32⟩ : BufTy).Contents (Elt Ideal))
    (x7 x8 : (⟨S1x2048, .f32⟩ : BufTy).Contents (Elt Ideal)) (x10 x11 : (⟨S2048x2048, .f32⟩ : BufTy).Contents (Elt Ideal))
    (r : Fin 8192) (q : Fin 2048) :
    val_main_v57 (F := Ideal) x0 x1 x3 x4 x5 x7 x8 x10 x11 (ix2 r q)
      = newA (val_main_v22 (F := Ideal) x0 x4 x7 x10 (ix2 r q)) (val_main_v24 (F := Ideal) x0 x4 x8 x11 (ix2 r q))
          (x1 (ix2 r q)) (x3 (ix2 r q)) (x5 (ix1 q)) := by
  rw [val_main_v57_apply, val_main_v55_apply, val_main_v56_apply, val_main_v52_apply, val_main_v54_apply,
    val_main_v51_apply, val_main_v53_apply, newP_at, val_main_v49_apply, decay_at]
  rfl

/-- The new denominator. -/
theorem newB_at (x0 x2 x3 x4 : (⟨S8192x2048, .f32⟩ : BufTy).Contents (Elt Ideal)) (x5 : (⟨S2048, .f32⟩ : BufTy).Contents (Elt Ideal))
    (x7 : (⟨S1x2048, .f32⟩ : BufTy).Contents (Elt Ideal)) (x10 : (⟨S2048x2048, .f32⟩ : BufTy).Contents (Elt Ideal))
    (r : Fin 8192) (q : Fin 2048) :
    val_main_v59 (F := Ideal) x0 x2 x3 x4 x5 x7 x10 (ix2 r q)
      = newB (val_main_v22 (F := Ideal) x0 x4 x7 x10 (ix2 r q)) (x2 (ix2 r q)) (x3 (ix2 r q)) (x5 (ix1 q)) := by
  rw [val_main_v59_apply, val_main_v58_apply, val_main_v52_apply, val_main_v54_apply,
    val_main_v51_apply, val_main_v53_apply, newP_at, val_main_v49_apply, decay_at]
  rfl

/-- The gated average `σ(r)·a / b`. -/
theorem gated_at (x0 x1 x2 x3 x4 : (⟨S8192x2048, .f32⟩ : BufTy).Contents (Elt Ideal)) (x6 : (⟨S2048, .f32⟩ : BufTy).Contents (Elt Ideal))
    (x7 x8 x9 : (⟨S1x2048, .f32⟩ : BufTy).Contents (Elt Ideal)) (x10 x11 x12 : (⟨S2048x2048, .f32⟩ : BufTy).Contents (Elt Ideal))
    (r : Fin 8192) (q : Fin 2048) :
    val_main_v61 (F := Ideal) x0 x1 x2 x3 x4 x6 x7 x8 x9 x10 x11 x12 (ix2 r q)
      = gated (val_main_v22 (F := Ideal) x0 x4 x7 x10 (ix2 r q)) (val_main_v24 (F := Ideal) x0 x4 x8 x11 (ix2 r q))
          (val_main_v26 (F := Ideal) x0 x4 x9 x12 (ix2 r q)) (x1 (ix2 r q)) (x2 (ix2 r q)) (x3 (ix2 r q)) (x6 (ix1 q)) := by
  rw [val_main_v61_apply, val_main_v60_apply, gate_at, val_main_v43_apply, val_main_v45_apply, val_main_v41_apply,
    val_main_v42_apply, val_main_v44_apply, val_main_v38_apply, val_main_v40_apply, val_main_v37_apply,
    val_main_v39_apply, val_main_v36_apply, val_main_v35_apply, bonus_at]
  rfl

/-! ## The four results as whole arrays -/

/-- The reference's new numerator is the specification's. -/
theorem newA_eq (x0 x1 x3 x4 : (⟨S8192x2048, .f32⟩ : BufTy).Contents (Elt Ideal)) (x5 : (⟨S2048, .f32⟩ : BufTy).Contents (Elt Ideal))
    (x7 x8 : (⟨S1x2048, .f32⟩ : BufTy).Contents (Elt Ideal)) (x10 x11 : (⟨S2048x2048, .f32⟩ : BufTy).Contents (Elt Ideal)) :
    val_main_v57 (F := Ideal) x0 x1 x3 x4 x5 x7 x8 x10 x11 = NewA x0 x1 x3 x4 x5 x7 x8 (tr x10) (tr x11) := by
  funext i
  obtain ⟨r, q, rfl⟩ : ∃ (r : Fin 8192) (q : Fin 2048), i = ix2 r q := ⟨i 0, i 1, eq_ix2 i⟩
  rw [newA_at, k_at, v_at]
  rfl

/-- The reference's new denominator is the specification's. -/
theorem newB_eq (x0 x2 x3 x4 : (⟨S8192x2048, .f32⟩ : BufTy).Contents (Elt Ideal)) (x5 : (⟨S2048, .f32⟩ : BufTy).Contents (Elt Ideal))
    (x7 : (⟨S1x2048, .f32⟩ : BufTy).Contents (Elt Ideal)) (x10 : (⟨S2048x2048, .f32⟩ : BufTy).Contents (Elt Ideal)) :
    val_main_v59 (F := Ideal) x0 x2 x3 x4 x5 x7 x10 = NewB x0 x2 x3 x4 x5 x7 (tr x10) := by
  funext i
  obtain ⟨r, q, rfl⟩ : ∃ (r : Fin 8192) (q : Fin 2048), i = ix2 r q := ⟨i 0, i 1, eq_ix2 i⟩
  rw [newB_at, k_at]
  rfl

/-- The reference's new exponent is the specification's. -/
theorem newP_eq (x0 x3 x4 : (⟨S8192x2048, .f32⟩ : BufTy).Contents (Elt Ideal)) (x5 : (⟨S2048, .f32⟩ : BufTy).Contents (Elt Ideal))
    (x7 : (⟨S1x2048, .f32⟩ : BufTy).Contents (Elt Ideal)) (x10 : (⟨S2048x2048, .f32⟩ : BufTy).Contents (Elt Ideal)) :
    val_main_v50 (F := Ideal) x0 x3 x4 x5 x7 x10 = NewP x0 x3 x4 x5 x7 (tr x10) := by
  funext i
  obtain ⟨r, q, rfl⟩ : ∃ (r : Fin 8192) (q : Fin 2048), i = ix2 r q := ⟨i 0, i 1, eq_ix2 i⟩
  rw [newP_at, k_at]
  rfl

/-- The reference's output is the specification's gated average times the transposed output weights. -/
theorem out_eq (x0 x1 x2 x3 x4 : (⟨S8192x2048, .f32⟩ : BufTy).Contents (Elt Ideal)) (x6 : (⟨S2048, .f32⟩ : BufTy).Contents (Elt Ideal))
    (x7 x8 x9 : (⟨S1x2048, .f32⟩ : BufTy).Contents (Elt Ideal)) (x10 x11 x12 x13 : (⟨S2048x2048, .f32⟩ : BufTy).Contents (Elt Ideal)) :
    val_main_v63 (F := Ideal) x0 x1 x2 x3 x4 x6 x7 x8 x9 x10 x11 x12 x13
      = Out (Gated x0 x1 x2 x3 x4 x6 x7 x8 x9 (tr x10) (tr x11) (tr x12)) (tr x13) := by
  funext i
  obtain ⟨r, q, rfl⟩ : ∃ (r : Fin 8192) (q : Fin 2048), i = ix2 r q := ⟨i 0, i 1, eq_ix2 i⟩
  rw [val_main_v63_apply]
  refine Finset.sum_congr rfl fun l _ => ?_
  rw [lidx63, ridx63, gated_at, k_at, v_at, r_at]
  rfl

end Cert.ReferenceIdeal.RefValue

end
-- ==== Proof.lean ====
/-
  One step of a time-mixing recurrence with a stabilised exponential average: a two-launch kernel against its plain
  array program.

  Both programs mix each of 8192 rows with the previous input, project the mixed rows three times by transposed
  2048 by 2048 weights (k, v and a gate), update a running numerator, denominator and exponent entry by entry, and
  project the gated average σ(r)·a/b by a fourth transposed weight. The kernel does the first part in 128 bands of 64
  rows, with the weights and the mixed rows narrowed to half-width floats and the products accumulated from zero, and
  the last projection in sixteen 1024 by 1024 tiles; the array program does each on whole arrays, with the logistic
  function written out as 1/(1 + e^(−r)). On the extended reals narrowing is the identity, a product into the zero
  accumulator is the plain sum over the channels, the written-out logistic is the logistic function, and every other
  operation is the same operation in the same order on both sides: both programs end at the specification's five
  arrays of the arguments (Proof/TimeMixSpec.lean), with no condition on the inputs.

  The kernel's frames are the generated ones; the array program's frame is its run with the results dropped; the
  idealization rewrote nothing, so there is nothing to preserve.
-/
import proofs.«158671_j6536940224793_2_alg».proof.Defs
import proofs.«158671_j6536940224793_2_alg».proof.Proof.Gen.Kernel
import proofs.«158671_j6536940224793_2_alg».proof.Proof.Gen.Kernel.Skeleton
import proofs.«158671_j6536940224793_2_alg».proof.Proof.Gen.Kernel.Launch
import proofs.«158671_j6536940224793_2_alg».proof.Proof.Gen.Kernel.Points
import proofs.«158671_j6536940224793_2_alg».proof.Proof.Gen.Kernel.Frame
import proofs.«158671_j6536940224793_2_alg».proof.Proof.Gen.KernelIdeal
import proofs.«158671_j6536940224793_2_alg».proof.Proof.Gen.KernelIdeal.Skeleton
import proofs.«158671_j6536940224793_2_alg».proof.Proof.Gen.KernelIdeal.Launch
import proofs.«158671_j6536940224793_2_alg».proof.Proof.Gen.KernelIdeal.Points
import proofs.«158671_j6536940224793_2_alg».proof.Proof.Gen.KernelIdeal.Frame
import proofs.«158671_j6536940224793_2_alg».proof.Proof.Gen.ReferenceIdeal
import proofs.«158671_j6536940224793_2_alg».proof.Proof.Gen.ReferenceIdeal.Run
import proofs.«158671_j6536940224793_2_alg».proof.Proof.Gen.ReferenceIdeal.Read
import proofs.«158671_j6536940224793_2_alg».proof.Proof.Gen.Pre_finite_inputs
import proofs.«158671_j6536940224793_2_alg».proof.Proof.KernelValue
import proofs.«158671_j6536940224793_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The array program's run with its five results dropped. -/
theorem frame_reference_ideal : Cert.frame_ReferenceIdeal := fun m ρ _ =>
  (θ_run Cert.ReferenceIdeal.defs _ _).mono (fun _ h c => (h c).2.2.2.2.2)
    (Cert.ReferenceIdeal.Value.run (F := Ideal) m ρ)

/-- From arguments that agree, the kernel's run ends at the specification's arrays (its two launches read band by
    band and tile by tile) and so does the array program's (its operations read entry by entry). -/
theorem algebraic : Cert.algebraic_KernelIdeal_ReferenceIdeal := by
  intro m ρ m' ρ' _ hagree
  refine ⟨_, _, _, _, _, Cert.KernelIdeal.Outcome.run m ρ, ?_⟩
  refine (θ_run Cert.ReferenceIdeal.defs _ _).mono (fun r h c => ?_)
    (Cert.ReferenceIdeal.Value.run (F := Ideal) m' ρ')
  obtain ⟨e0, e1, e2, e3, e4, e5, e6, e7, e8, e9, e10, e11, e12, e13⟩ := hagree c
  obtain ⟨h63, h57, h59, h50, hx, hrest⟩ := h c
  refine ⟨h63.trans ?_, h57.trans ?_, h59.trans ?_, h50.trans ?_, hx.trans e0, hrest⟩
  · rw [Cert.ReferenceIdeal.Read.val_main_v63_eq, Cert.ReferenceIdeal.RefValue.out_eq,
      e0, e1, e2, e3, e4, e6, e7, e8, e9, e10, e11, e12, e13]
  · rw [Cert.ReferenceIdeal.Read.val_main_v57_eq, Cert.ReferenceIdeal.RefValue.newA_eq,
      e0, e1, e3, e4, e5, e7, e8, e10, e11]
  · rw [Cert.ReferenceIdeal.Read.val_main_v59_eq, Cert.ReferenceIdeal.RefValue.newB_eq,
      e0, e2, e3, e4, e5, e7, e10]
  · rw [Cert.ReferenceIdeal.Read.val_main_v50_eq, Cert.ReferenceIdeal.RefValue.newP_eq,
      e0, e3, e4, e5, e7, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
